-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x16 : Shape := ⟨2, ![3200000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S16x8 : Shape := ⟨2, ![16, 8]⟩
abbrev S_ : Shape := ⟨0, ![]⟩

class Facts : Prop where
  bcast_S_S3200000x16 : S_.BroadcastsInDim S3200000x16 (![] : Fin 0 → Fin S3200000x16.rank)
  reducesTo_S3200000x16_S_d0_1 : S3200000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S16x8 : S_.BroadcastsInDim S16x8 (![] : Fin 0 → Fin S16x8.rank)
  reducesTo_S16x8_S_d0_1 : S16x8.ReducesTo [0, 1] S_

variable [Facts]

def fn_part1 {F : FTy → Type} [FloatOps F] (main_arg4 : FVec F S8 .f32) (main_arg5 : FVec F S16x8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  main_v28

def fn {F : FTy → Type} [FloatOps F] (main_arg0 : FVec F S3200000x16 .f32) (main_arg1 : FVec F S16x32 .f32) (main_arg2 : FVec F S32 .f32) (main_arg3 : FVec F S32x8 .f32) (main_arg4 : FVec F S8 .f32) (main_arg5 : FVec F S16x8 .f32) : IVec S_ 1 :=
  let main_v0 : FVec F S3200000x16 .f32 := Host.absf main_arg0
  let main_cst : FVec F S_ .f32 := constant S_ .f32 0x7F800000#32
  let main_v1 : FVec F S3200000x16 .f32 := broadcastInDim S3200000x16 ![] bcast_S_S3200000x16 main_cst
  let main_v2 : IVec S3200000x16 1 := cmpf .olt main_v0 main_v1
  let main_c : IVec S_ 1 := constantI S_ 1 1#1
  let main_v3 : IVec S_ 1 := (fun x v => Host.reduce IntOp.andi x v reducesTo_S3200000x16_S_d0_1 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_v13 main_v16
-- ==== Kernel.lean ====
abbrev S3200000x16 : Shape := ⟨2, ![3200000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S16x8 : Shape := ⟨2, ![16, 8]⟩
abbrev S16x3200000 : Shape := ⟨2, ![16, 3200000]⟩
abbrev S32x16 : Shape := ⟨2, ![32, 16]⟩
abbrev S8x32 : Shape := ⟨2, ![8, 32]⟩
abbrev S8x16 : Shape := ⟨2, ![8, 16]⟩
abbrev S32x1 : Shape := ⟨2, ![32, 1]⟩
abbrev S8x1 : Shape := ⟨2, ![8, 1]⟩
abbrev S8x3200000 : Shape := ⟨2, ![8, 3200000]⟩
abbrev S3200000 : Shape := ⟨1, ![3200000]⟩
abbrev S3200000x8 : Shape := ⟨2, ![3200000, 8]⟩
abbrev S16x128000 : Shape := ⟨2, ![16, 128000]⟩
abbrev S8x128000 : Shape := ⟨2, ![8, 128000]⟩
abbrev S128000 : Shape := ⟨1, ![128000]⟩
abbrev S32x128000 : Shape := ⟨2, ![32, 128000]⟩
abbrev S1x128000 : Shape := ⟨2, ![1, 128000]⟩

abbrev nBuf : Space → Nat
  | .hbm => 17
  | .vmem => 11
  | .smem => 0
  | _ => 0

abbrev bufTy : (tb : Table) → Fin (tcTables nBuf tb) → BufTy
  | .hbm, ⟨0, _⟩ => ⟨S3200000x16, .f32⟩
  | .hbm, ⟨1, _⟩ => ⟨S16x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S16x8, .f32⟩
  | .hbm, ⟨6, _⟩ => ⟨S16x3200000, .f32⟩
  | .hbm, ⟨7, _⟩ => ⟨S32x16, .f32⟩
  | .hbm, ⟨8, _⟩ => ⟨S32x16, .bf16⟩
  | .hbm, ⟨9, _⟩ => ⟨S8x32, .f32⟩
  | .hbm, ⟨10, _⟩ => ⟨S8x16, .f32⟩
  | .hbm, ⟨11, _⟩ => ⟨S8x16, .bf16⟩
  | .hbm, ⟨12, _⟩ => ⟨S32x1, .f32⟩
  | .hbm, ⟨13, _⟩ => ⟨S8x1, .f32⟩
  | .hbm, ⟨14, _⟩ => ⟨S8x3200000, .f32⟩
  | .hbm, ⟨15, _⟩ => ⟨S3200000, .f32⟩
  | .hbm, ⟨16, _⟩ => ⟨S3200000x8, .f32⟩
  | .local _ .vmem, ⟨0, _⟩ => ⟨S16x128000, .f32⟩
  | .local _ .vmem, ⟨1, _⟩ => ⟨S16x128000, .f32⟩
  | .local _ .vmem, ⟨2, _⟩ => ⟨S32x16, .bf16⟩
  | .local _ .vmem, ⟨3, _⟩ => ⟨S32x1, .f32⟩
  | .local _ .vmem, ⟨4, _⟩ => ⟨S8x32, .f32⟩
  | .local _ .vmem, ⟨5, _⟩ => ⟨S8x1, .f32⟩
  | .local _ .vmem, ⟨6, _⟩ => ⟨S8x16, .bf16⟩
  | .local _ .vmem, ⟨7, _⟩ => ⟨S8x128000, .f32⟩
  | .local _ .vmem, ⟨8, _⟩ => ⟨S8x128000, .f32⟩
  | .local _ .vmem, ⟨9, _⟩ => ⟨S128000, .f32⟩
  | .local _ .vmem, ⟨10, _⟩ => ⟨S128000, .f32⟩
  | _, _ => ⟨S3200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8_0 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S3200000x16_S16x3200000_1_0 : S3200000x16.Transposes [1, 0] S16x3200000
  transposes_S16x32_S32x16_1_0 : S16x32.Transposes [1, 0] S32x16
  bitsLt_bf16_f32 : FTy.bits .bf16 < FTy.bits .f32
  transposes_S32x8_S8x32_1_0 : S32x8.Transposes [1, 0] S8x32
  transposes_S16x8_S8x16_1_0 : S16x8.Transposes [1, 0] S8x16
  shapeCasts_S32_S32x1 : S32.ShapeCasts S32x1
  shapeCasts_S8_S8x1 : S8.ShapeCasts S8x1
  transposes_S8x3200000_S3200000x8_1_0 : S8x3200000.Transposes [1, 0] S3200000x8
  inb_S16x128000_S16x128000_0_0 : ∀ a, (![0, 0] : Fin 2 → Nat) a + S16x128000.size a ≤ S16x128000.size a
  h_S16x128000 : 0 < S16x128000.numel
  shapeCasts_S16x128000_S16x128000 : S16x128000.ShapeCasts S16x128000
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128000 : S32x1.Broadcasts S32x128000
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x128000 : S8x1.Broadcasts S8x128000
  reduces_S8x128000_S128000 : S8x128000.Reduces [0] S128000
  shapeCasts_S128000_S1x128000 : S128000.ShapeCasts S1x128000
  broadcasts_S1x128000_S8x128000 : S1x128000.Broadcasts S8x128000
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x128000_S8x128000_0_0 : ∀ a, (![0, 0] : Fin 2 → Nat) a + S8x128000.size a ≤ S8x128000.size a
  h_S8x128000 : 0 < S8x128000.numel
  inb_S128000_S128000_0 : ∀ a, (![0] : Fin 1 → Nat) a + S128000.size a ≤ S128000.size a
  h_S128000 : 0 < S128000.numel
  dot_S32x16_S16x128000_S32x128000_1_0_0_1_n_n_wf : DotDims.WF S32x16 S16x128000 S32x128000 [1] [0] [0] [1] [] []
  dot_S8x32_S32x128000_S8x128000_1_0_0_1_n_n_wf : DotDims.WF S8x32 S32x128000 S8x128000 [1] [0] [0] [1] [] []
  dot_S8x16_S16x128000_S8x128000_1_0_0_1_n_n_wf : DotDims.WF S8x16 S16x128000 S8x128000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128000.size a ≤ S16x3200000.size a
  hwx0_0 : ∀ i : grid0.Coords, EltTy.bits .f32 = 32 ∨ (Rect.block (s := S16x3200000) S16x128000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .bf16 = 32 ∨ (Rect.block (s := S32x16) S32x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S8x32.size a
  hwx0_3 : ∀ i : grid0.Coords, EltTy.bits .f32 = 32 ∨ (Rect.block (s := S8x32) S8x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x16.size a ≤ S8x16.size a
  hwx0_5 : ∀ i : grid0.Coords, EltTy.bits .bf16 = 32 ∨ (Rect.block (s := S8x16) S8x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128000.size a ≤ S8x3200000.size a
  hwx0_6 : ∀ i : grid0.Coords, EltTy.bits .f32 = 32 ∨ (Rect.block (s := S8x3200000) S8x128000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128000.size a ≤ S3200000.size a
  hwx0_7 : ∀ i : grid0.Coords, EltTy.bits .f32 = 32 ∨ (Rect.block (s := S3200000) S128000.size (cc0_transform_7 i) (hinb0_7 i)).WholeWords (EltTy.packing .f32)

variable [Facts₀]

def dot_S32x16_S16x128000_S32x128000_1_0_0_1_n_n : DotDims S32x16 S16x128000 S32x128000 where
  lhsContracting := [1]
  rhsContracting := [0]
  lhsNonContracting := [0]
  rhsNonContracting := [1]
  lhsBatch := []
  rhsBatch := []
  wf := dot_S32x16_S16x128000_S32x128000_1_0_0_1_n_n_wf
def dot_S8x32_S32x128000_S8x128000_1_0_0_1_n_n : DotDims S8x32 S32x128000 S8x128000 where
  lhsContracting := [1]
  rhsContracting := [0]
  lhsNonContracting := [0]
  rhsNonContracting := [1]
  lhsBatch := []
  rhsBatch := []
  wf := dot_S8x32_S32x128000_S8x128000_1_0_0_1_n_n_wf
def dot_S8x16_S16x128000_S8x128000_1_0_0_1_n_n : DotDims S8x16 S16x128000 S8x128000 where
  lhsContracting := [1]
  rhsContracting := [0]
  lhsNonContracting := [0]
  rhsNonContracting := [1]
  lhsBatch := []
  rhsBatch := []
  wf := dot_S8x16_S16x128000_S8x128000_1_0_0_1_n_n_wf

abbrev win0_0 : Pipeline.Window sig grid0 :=
  Pipeline.Window.ofSpec (Memref.whole main_call0_v0) S16x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S8x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S8x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8_0) S8x128000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S128000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S3200000x16 : Shape := ⟨2, ![3200000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S16x8 : Shape := ⟨2, ![16, 8]⟩
abbrev S3200000x32 : Shape := ⟨2, ![3200000, 32]⟩
abbrev S1x32 : Shape := ⟨2, ![1, 32]⟩
abbrev S_ : Shape := ⟨0, ![]⟩
abbrev S3200000x8 : Shape := ⟨2, ![3200000, 8]⟩
abbrev S1x8 : Shape := ⟨2, ![1, 8]⟩
abbrev S3200000 : Shape := ⟨1, ![3200000]⟩
abbrev S3200000x1 : Shape := ⟨2, ![3200000, 1]⟩

abbrev nBuf : Space → Nat
  | .hbm => 38
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S16x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S16x8, .f32⟩
  | .hbm, ⟨6, _⟩ => ⟨S3200000x32, .f32⟩
  | .hbm, ⟨7, _⟩ => ⟨S1x32, .f32⟩
  | .hbm, ⟨8, _⟩ => ⟨S3200000x32, .f32⟩
  | .hbm, ⟨9, _⟩ => ⟨S3200000x32, .f32⟩
  | .hbm, ⟨10, _⟩ => ⟨S_, .f32⟩
  | .hbm, ⟨11, _⟩ => ⟨S3200000x32, .f32⟩
  | .hbm, ⟨12, _⟩ => ⟨S3200000x32, .f32⟩
  | .hbm, ⟨13, _⟩ => ⟨S3200000x8, .f32⟩
  | .hbm, ⟨14, _⟩ => ⟨S1x8, .f32⟩
  | .hbm, ⟨15, _⟩ => ⟨S3200000x8, .f32⟩
  | .hbm, ⟨16, _⟩ => ⟨S3200000x8, .f32⟩
  | .hbm, ⟨17, _⟩ => ⟨S_, .f32⟩
  | .hbm, ⟨18, _⟩ => ⟨S3200000x8, .f32⟩
  | .hbm, ⟨19, _⟩ => ⟨S3200000x8, .f32⟩
  | .hbm, ⟨20, _⟩ => ⟨S_, .f32⟩
  | .hbm, ⟨21, _⟩ => ⟨S3200000, .f32⟩
  | .hbm, ⟨22, _⟩ => ⟨S_, .f32⟩
  | .hbm, ⟨23, _⟩ => ⟨S3200000, .f32⟩
  | .hbm, ⟨24, _⟩ => ⟨S3200000, .f32⟩
  | .hbm, ⟨25, _⟩ => ⟨S3200000x1, .f32⟩
  | .hbm, ⟨26, _⟩ => ⟨S3200000x8, .f32⟩
  | .hbm, ⟨27, _⟩ => ⟨S3200000x8, .f32⟩
  | .hbm, ⟨28, _⟩ => ⟨S3200000x8, .f32⟩
  | .hbm, ⟨29, _⟩ => ⟨S_, .f32⟩
  | .hbm, ⟨30, _⟩ => ⟨S3200000, .f32⟩
  | .hbm, ⟨31, _⟩ => ⟨S3200000x1, .f32⟩
  | .hbm, ⟨32, _⟩ => ⟨S3200000x8, .f32⟩
  | .hbm, ⟨33, _⟩ => ⟨S3200000x8, .f32⟩
  | .hbm, ⟨34, _⟩ => ⟨S3200000x8, .f32⟩
  | .hbm, ⟨35, _⟩ => ⟨S3200000x8, .f32⟩
  | .hbm, ⟨36, _⟩ => ⟨S_, .f32⟩
  | .hbm, ⟨37, _⟩ => ⟨S3200000, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S_S3200000x8 : S_.BroadcastsInDim S3200000x8 (![] : Fin 0 → Fin S3200000x8.rank)
  reducesTo_S3200000x8_S3200000_d1 : S3200000x8.ReducesTo [1] S3200000
  h_S_ : 0 < S_.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x8_0_1 : S3200000x1.BroadcastsInDim S3200000x8 (![0, 1] : Fin 2 → Fin S3200000x8.rank)
  dot_S3200000x16_S16x32_S3200000x32_1_0_0_1_n_n_wf : DotDims.WF S3200000x16 S16x32 S3200000x32 [1] [0] [0] [1] [] []
  dot_S3200000x32_S32x8_S3200000x8_1_0_0_1_n_n_wf : DotDims.WF S3200000x32 S32x8 S3200000x8 [1] [0] [0] [1] [] []
  dot_S3200000x16_S16x8_S3200000x8_1_0_0_1_n_n_wf : DotDims.WF S3200000x16 S16x8 S3200000x8 [1] [0] [0] [1] [] []

variable [Facts₀]

def dot_S3200000x16_S16x32_S3200000x32_1_0_0_1_n_n : DotDims S3200000x16 S16x32 S3200000x32 where
  lhsContracting := [1]
  rhsContracting := [0]
  lhsNonContracting := [0]
  rhsNonContracting := [1]
  lhsBatch := []
  rhsBatch := []
  wf := dot_S3200000x16_S16x32_S3200000x32_1_0_0_1_n_n_wf
def dot_S3200000x32_S32x8_S3200000x8_1_0_0_1_n_n : DotDims S3200000x32 S32x8 S3200000x8 where
  lhsContracting := [1]
  rhsContracting := [0]
  lhsNonContracting := [0]
  rhsNonContracting := [1]
  lhsBatch := []
  rhsBatch := []
  wf := dot_S3200000x32_S32x8_S3200000x8_1_0_0_1_n_n_wf
def dot_S3200000x16_S16x8_S3200000x8_1_0_0_1_n_n : DotDims S3200000x16 S16x8 S3200000x8 where
  lhsContracting := [1]
  rhsContracting := [0]
  lhsNonContracting := [0]
  rhsNonContracting := [1]
  lhsBatch := []
  rhsBatch := []
  wf := dot_S3200000x16_S16x8_S3200000x8_1_0_0_1_n_n_wf

class Facts : Prop extends Facts₀ where

variable [Facts]
-- ==== Proof.Gater.lean ====
/-
  The function both programs compute, for one edge at a time, on the extended reals.

  An edge has sixteen features `x`. A hidden layer of thirty-two units, `max (x · W1 + b1) 0`, feeds eight
  logits `h · W2 + b2`; the gate is the softmax of the logits; the expert scores are `x · Wp`; the fused
  value is the gate-weighted sum of the scores. The softmax is written twice: as the exponential times the
  reciprocal of the exponentials' sum (`gate`), and with every logit first lowered by the largest one and a
  quotient by the sum (`gateShifted`). On finite logits the two agree (Proof/Softmax.lean).
-/
import Idealize.ShloMosaic.PureOps.Ideal
import Idealize.ShloMosaic.Lib.ValueIdx

noncomputable section

namespace Cert.Gater

open Idealize.ShloMosaic Idealize.ShloMosaic.ValueIdx

/-- One hidden unit of one edge: `max (∑ₖ xₖ · W1ₖⱼ + b1ⱼ) 0`. -/
def hidden (x : Fin 16 → EReal) (w1 : Fin 16 → Fin 32 → EReal) (b1 : Fin 32 → EReal) (j : Fin 32) : EReal :=
  max (∑ k : Fin 16, x k * w1 k j + b1 j) 0

/-- One logit of one edge: `∑ⱼ hⱼ · W2ⱼq + b2q`. -/
def logit (x : Fin 16 → EReal) (w1 : Fin 16 → Fin 32 → EReal) (b1 : Fin 32 → EReal) (w2 : Fin 32 → Fin 8 → EReal)
    (b2 : Fin 8 → EReal) (q : Fin 8) : EReal :=
  ∑ j : Fin 32, hidden x w1 b1 j * w2 j q + b2 q

/-- The softmax as the exponential times the reciprocal of the sum of the exponentials. -/
def gate (l : Fin 8 → EReal) (q : Fin 8) : EReal :=
  Ideal.exp (l q) * Ideal.div 1 (∑ p : Fin 8, Ideal.exp (l p))

/-- The largest of eight extended reals, folded from `-∞`. -/
def top8 (l : Fin 8 → EReal) : EReal := (Finset.univ : Finset (Fin 8)).fold max ⊥ l

/-- The softmax with every logit lowered by the largest one first, as a quotient by the sum. -/
def gateShifted (l : Fin 8 → EReal) (q : Fin 8) : EReal :=
  Ideal.div (Ideal.exp (l q - top8 l)) (∑ p : Fin 8, Ideal.exp (l p - top8 l))

/-- One expert score of one edge: `∑ₖ xₖ · Wpₖq`. -/
def score (x : Fin 16 → EReal) (wp : Fin 16 → Fin 8 → EReal) (q : Fin 8) : EReal :=
  ∑ k : Fin 16, x k * wp k q

/-- The gate-weighted sum of the scores. -/
def fuse (a s : Fin 8 → EReal) : EReal := ∑ q : Fin 8, a q * s q

/-! ## The same over whole arrays -/

/-- Row `e` of a two-axis array. -/
def rowOf {a b : Nat} (A : (⟨2, ![a, b]⟩ : Shape).Idx → EReal) (e : Fin a) : Fin b → EReal := fun k => A (ix2 e k)

/-- A two-axis array as a function of its two coordinates. -/
def mat {a b : Nat} (A : (⟨2, ![a, b]⟩ : Shape).Idx → EReal) : Fin a → Fin b → EReal := fun i j => A (ix2 i j)

/-- A one-axis array as a function of its coordinate. -/
def vec {a : Nat} (A : (⟨1, ![a]⟩ : Shape).Idx → EReal) : Fin a → EReal := fun i => A (ix1 i)

/-- The logits of edge `e`. -/
def logitsAt (X : (⟨2, ![3200000, 16]⟩ : Shape).Idx → EReal) (A1 : (⟨2, ![16, 32]⟩ : Shape).Idx → EReal)
    (B1 : (⟨1, ![32]⟩ : Shape).Idx → EReal) (A2 : (⟨2, ![32, 8]⟩ : Shape).Idx → EReal) (B2 : (⟨1, ![8]⟩ : Shape).Idx → EReal)
    (e : Fin 3200000) : Fin 8 → EReal :=
  logit (rowOf X e) (mat A1) (vec B1) (mat A2) (vec B2)

/-- The gate of every edge: entry `(e, q)` is expert `q`'s weight on edge `e`. -/
def gateArr (X : (⟨2, ![3200000, 16]⟩ : Shape).Idx → EReal) (A1 : (⟨2, ![16, 32]⟩ : Shape).Idx → EReal)
    (B1 : (⟨1, ![32]⟩ : Shape).Idx → EReal) (A2 : (⟨2, ![32, 8]⟩ : Shape).Idx → EReal) (B2 : (⟨1, ![8]⟩ : Shape).Idx → EReal) :
    (⟨2, ![3200000, 8]⟩ : Shape).Idx → EReal :=
  fun i => gate (logitsAt X A1 B1 A2 B2 (i 0)) (i 1)

/-- The fused value of every edge. -/
def fusedArr (X : (⟨2, ![3200000, 16]⟩ : Shape).Idx → EReal) (A1 : (⟨2, ![16, 32]⟩ : Shape).Idx → EReal)
    (B1 : (⟨1, ![32]⟩ : Shape).Idx → EReal) (A2 : (⟨2, ![32, 8]⟩ : Shape).Idx → EReal) (B2 : (⟨1, ![8]⟩ : Shape).Idx → EReal)
    (Ap : (⟨2, ![16, 8]⟩ : Shape).Idx → EReal) : (⟨1, ![3200000]⟩ : Shape).Idx → EReal :=
  fun i => fuse (gate (logitsAt X A1 B1 A2 B2 (i 0))) (score (rowOf X (i 0)) (mat Ap))

end Cert.Gater

end
-- ==== Proof.Softmax.lean ====
/-
  The two ways of writing the softmax agree on finite logits.

  With real logits `l` the largest of them, `m`, is a real number too (a maximum folded from `-∞` over a
  nonempty finite family of reals lies strictly between `-∞` and `+∞`). Then every term is real:
  `exp (l q - m) = exp (l q) / exp m`, the sum of the lowered exponentials is the sum of the exponentials
  divided by `exp m`, both sums are positive reals, so each quotient is the product with a real reciprocal,
  and the factor `exp m` cancels. The logits of the gating network are real when its inputs and weights
  are, because products, sums, finite sums and maxima of reals are real.
-/
import proofs.«155973_g88742614270593_cont_sun_c4_34_44_alg».proof.Proof.Gater

noncomputable section

namespace Cert.Gater

open Idealize.ShloMosaic Idealize.ShloMosaic.ValueIdx

/-! ## Division by one -/

/-- A quotient by one is the numerator, at the infinities too. -/
theorem div_one (x : EReal) : Ideal.div x 1 = x := by
  rw [Ideal.div, if_neg one_ne_zero, ← EReal.coe_one, ← EReal.coe_inv, inv_one, EReal.coe_one, mul_one]

/-! ## Real values inside the extended reals -/

/-- The inclusion of the reals commutes with a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (EReal.coe_strictMono.monotone.map_max (a := a) (b := b)).symm⟩

theorem real_sum {ι : Type} (s : Finset ι) {f : ι → EReal} (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-! ## The largest of eight reals is real -/

theorem top8_real (l : Fin 8 → ℝ) : ∃ m : ℝ, top8 (fun q => ((l q : ℝ) : EReal)) = (m : EReal) := by
  have h1 : top8 (fun q => ((l q : ℝ) : EReal)) < ⊤ := by
    unfold top8
    rw [Finset.fold_max_lt]
    exact ⟨bot_lt_top, fun x _ => EReal.coe_lt_top _⟩
  have h2 : ⊥ < top8 (fun q => ((l q : ℝ) : EReal)) := by
    unfold top8
    rw [Finset.lt_fold_max]
    exact Or.inr ⟨0, Finset.mem_univ _, EReal.bot_lt_coe _⟩
  exact ⟨_, (EReal.coe_toReal h1.ne h2.ne').symm⟩

/-! ## The softmax identity over the reals -/

theorem sum_exp_pos (l : Fin 8 → ℝ) : 0 < ∑ p : Fin 8, Real.exp (l p) :=
  Finset.sum_pos (fun _ _ => Real.exp_pos _) Finset.univ_nonempty

/-- Lowering every logit by the same real `m` does not change the softmax. -/
theorem softmax_shift (l : Fin 8 → ℝ) (m : ℝ) (q : Fin 8) :
    Real.exp (l q - m) * (1 / ∑ p : Fin 8, Real.exp (l p - m))
      = Real.exp (l q) * (1 / ∑ p : Fin 8, Real.exp (l p)) := by
  have hS : (∑ p : Fin 8, Real.exp (l p)) ≠ 0 := (sum_exp_pos l).ne'
  have hm : Real.exp m ≠ 0 := (Real.exp_pos m).ne'
  have hsum : ∑ p : Fin 8, Real.exp (l p - m) = (∑ p : Fin 8, Real.exp (l p)) / Real.exp m := by
    rw [Finset.sum_div]
    exact Finset.sum_congr rfl (fun p _ => Real.exp_sub _ _)
  rw [hsum, Real.exp_sub]
  field_simp

/-! ## The two softmaxes on real logits -/

theorem gateShifted_eq_gate_of_real (l : Fin 8 → ℝ) :
    gateShifted (fun q => ((l q : ℝ) : EReal)) = gate (fun q => ((l q : ℝ) : EReal)) := by
  obtain ⟨m, hm⟩ := top8_real l
  funext q
  have hS1 : (∑ p : Fin 8, Ideal.exp (((l p : ℝ) : EReal) - (m : EReal)))
      = ((∑ p : Fin 8, Real.exp (l p - m) : ℝ) : EReal) := by
    rw [coe_sum]
    exact Finset.sum_congr rfl (fun p _ => by rw [← EReal.coe_sub, Ideal.exp_coe])
  have hS2 : (∑ p : Fin 8, Ideal.exp ((l p : ℝ) : EReal)) = ((∑ p : Fin 8, Real.exp (l p) : ℝ) : EReal) := by
    rw [coe_sum]
    exact Finset.sum_congr rfl (fun p _ => Ideal.exp_coe _)
  have h1 : (∑ p : Fin 8, Real.exp (l p - m)) ≠ 0 := (sum_exp_pos (fun p => l p - m)).ne'
  have h2 : (∑ p : Fin 8, Real.exp (l p)) ≠ 0 := (sum_exp_pos l).ne'
  show Ideal.div (Ideal.exp (((l q : ℝ) : EReal) - top8 (fun q => ((l q : ℝ) : EReal))))
        (∑ p : Fin 8, Ideal.exp (((l p : ℝ) : EReal) - top8 (fun q => ((l q : ℝ) : EReal))))
      = Ideal.exp ((l q : ℝ) : EReal) * Ideal.div 1 (∑ p : Fin 8, Ideal.exp ((l p : ℝ) : EReal))
  rw [hm, hS1, hS2, Ideal.div_coe h1, Ideal.div_coe h2, one_mul, ← EReal.coe_sub, Ideal.exp_coe, Ideal.exp_coe,
    ← EReal.coe_mul, ← EReal.coe_mul, softmax_shift]

/-! ## The logits of the gating network are real -/

theorem logit_real (x : Fin 16 → EReal) (w1 : Fin 16 → Fin 32 → EReal) (b1 : Fin 32 → EReal)
    (w2 : Fin 32 → Fin 8 → EReal) (b2 : Fin 8 → EReal)
    (hx : ∀ k, ∃ r : ℝ, x k = (r : EReal)) (hw1 : ∀ k j, ∃ r : ℝ, w1 k j = (r : EReal))
    (hb1 : ∀ j, ∃ r : ℝ, b1 j = (r : EReal))
    (hw2 : ∀ j q, ∃ r : ℝ, w2 j q = (r : EReal)) (hb2 : ∀ q, ∃ r : ℝ, b2 q = (r : EReal)) :
    ∃ l : Fin 8 → ℝ, logit x w1 b1 w2 b2 = fun q => ((l q : ℝ) : EReal) := by
  have hh : ∀ j, ∃ r : ℝ, hidden x w1 b1 j = (r : EReal) := fun j =>
    real_max (real_add (real_sum _ (fun k => real_mul (hx k) (hw1 k j))) (hb1 j)) real_zero
  have hl : ∀ q, ∃ r : ℝ, logit x w1 b1 w2 b2 q = (r : EReal) := fun q =>
    real_add (real_sum _ (fun j => real_mul (hh j) (hw2 j q))) (hb2 q)
  choose l hl using hl
  exact ⟨l, funext hl⟩

theorem gateShifted_logitsAt (X : (⟨2, ![3200000, 16]⟩ : Shape).Idx → EReal)
    (A1 : (⟨2, ![16, 32]⟩ : Shape).Idx → EReal) (B1 : (⟨1, ![32]⟩ : Shape).Idx → EReal)
    (A2 : (⟨2, ![32, 8]⟩ : Shape).Idx → EReal) (B2 : (⟨1, ![8]⟩ : Shape).Idx → EReal)
    (hX : ∀ i, ∃ r : ℝ, X i = (r : EReal)) (hA1 : ∀ i, ∃ r : ℝ, A1 i = (r : EReal))
    (hB1 : ∀ i, ∃ r : ℝ, B1 i = (r : EReal))
    (hA2 : ∀ i, ∃ r : ℝ, A2 i = (r : EReal)) (hB2 : ∀ i, ∃ r : ℝ, B2 i = (r : EReal)) (e : Fin 3200000) :
    gateShifted (logitsAt X A1 B1 A2 B2 e) = gate (logitsAt X A1 B1 A2 B2 e) := by
  obtain ⟨l, hl⟩ := logit_real (rowOf X e) (mat A1) (vec B1) (mat A2) (vec B2)
    (fun k => hX (ix2 e k)) (fun k j => hA1 (ix2 k j)) (fun j => hB1 (ix1 j))
    (fun j q => hA2 (ix2 j q)) (fun q => hB2 (ix1 q))
  rw [logitsAt, hl]
  exact gateShifted_eq_gate_of_real l

end Cert.Gater

end
-- ==== Proof.Finite.lean ====
/-
  The precondition read back: every entry of the six inputs is a real number.

  The printed predicate says, of each of the six arrays `a`, that `|a i| < +∞` at every index `i`, and takes the
  conjunction of the six. A conjunction of one-bit words is 1 exactly when each word is 1; a reduction by `and`
  into a single result that is 1 met a 1 at every index; the bit pattern `0x7F800000` is `+∞`; the absolute value
  of an extended real is `max a (-a)`, which is `+∞` at both infinities; so `max a (-a) < +∞` leaves only the case
  of a real number.
-/
import proofs.«155973_g88742614270593_cont_sun_c4_34_44_alg».proof.Pre_finite_inputs
import proofs.«155973_g88742614270593_cont_sun_c4_34_44_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- An array of no axes has one index. -/
instance subsingleton_S_ : Subsingleton S_.Idx := ⟨fun _ _ => funext fun d => d.elim0⟩

/-- The one-bit word of a truth value is 1 exactly when the value is true. -/
theorem ofBool_eq_one {b : Bool} : BitVec.ofBool b = 1#1 ↔ b = true := by cases b <;> decide

/-- The pattern `0x7F800000` denotes `+∞`. -/
theorem inf_bits : Ideal.ofBits .f32 0x7F800000#32 = ⊤ := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  unfold Ideal.cmp at h
  have h' : max x (-x) < ⊤ := of_decide_eq_true (ofBool_eq_one.1 h)
  induction x using EReal.rec with
  | bot => simp at h'
  | coe r => exact ⟨r, rfl⟩
  | top => simp at h'

/-- A conjunction of two one-bit arrays that is 1 at an index has both 1 there. -/
theorem andi_split {s : Shape} {x y : IVec s 1} {j : s.Idx} (h : andi x y j = 1#1) : x j = 1#1 ∧ y j = 1#1 :=
  IntOp.andi_eq_one.1 h

/-- An array all of whose comparisons `|a i| < +∞` hold is real everywhere: the comparison, the broadcast of the
    constant and the reduction by `and` as the predicate is printed. -/
theorem real_of_all {s : Shape} {axes : List (Fin s.rank)} (hb : S_.BroadcastsInDim s (![] : Fin 0 → Fin s.rank))
    (hr : s.ReducesTo axes S_) (hu : 0 < S_.numel) (a : FVec Ideal s .f32) (init : IVec S_ 1)
    (h : Host.reduce IntOp.andi
          (cmpf .olt (Host.absf a) (broadcastInDim s ![] hb (constant (F := Ideal) S_ .f32 0x7F800000#32))) init hr hu ix0
        = 1#1)
    (i : s.Idx) : ∃ r : ℝ, a i = (r : EReal) := by
  have e := Host.reduce_andi_all _ init hr hu ix0 h i
  have e' : Ideal.cmp .olt (max (a i) (-(a i))) ⊤ = 1#1 := by
    rw [← inf_bits]
    exact e
  exact real_of_abs_lt_top _ e'

/-- The precondition decoded: each of the six inputs is real at every index. -/
theorem real_of_finite [Cert.Pre_finite_inputs.Facts]
    (a0 : FVec Ideal Cert.Pre_finite_inputs.S3200000x16 .f32) (a1 : FVec Ideal Cert.Pre_finite_inputs.S16x32 .f32)
    (a2 : FVec Ideal Cert.Pre_finite_inputs.S32 .f32) (a3 : FVec Ideal Cert.Pre_finite_inputs.S32x8 .f32)
    (a4 : FVec Ideal Cert.Pre_finite_inputs.S8 .f32) (a5 : FVec Ideal Cert.Pre_finite_inputs.S16x8 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ix0
  unfold Cert.Pre_finite_inputs.fn Cert.Pre_finite_inputs.fn_part1 at e
  dsimp only at e
  obtain ⟨e, h5⟩ := andi_split e
  obtain ⟨e, h4⟩ := andi_split e
  obtain ⟨e, h3⟩ := andi_split e
  obtain ⟨e, h2⟩ := andi_split e
  obtain ⟨h0, h1⟩ := andi_split e
  exact ⟨real_of_all _ _ _ a0 _ h0, real_of_all _ _ _ a1 _ h1, real_of_all _ _ _ a2 _ h2, real_of_all _ _ _ a3 _ h3,
    real_of_all _ _ _ a4 _ h4, real_of_all _ _ _ a5 _ h5⟩

end Cert.Finite

end
-- ==== Proof.Consts.lean ====
/-
  The float constants the two programs spell, as the extended reals their bit patterns denote: the word of
  `1.0` is the real one, the word of `-inf` is the bottom element. (The zero word is the library's
  `Ideal.ofBits_zero_f32`.)
-/
import Idealize.ShloMosaic.PureOps.Ideal

noncomputable section

namespace Cert.Gater.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `-inf` denotes `⊥`. -/
theorem ofBits_neg_inf : Ideal.ofBits .f32 0xFF800000#32 = ⊥ := by
  simp [Ideal.ofBits, Ideal.ieee]

end Cert.Gater.Consts

end
-- ==== Proof.KernelBody.lean ====
/-
  The kernel body's two stored values, read one entry at a time on the extended reals.

  A block holds 128000 edges, one per lane; features, hidden units and experts run along the other axis. The
  stored gate block at `(q, l)` is the softmax weight of expert `q` on the block's edge `l`, the exponential of
  its logit times the reciprocal of the eight exponentials' sum; the stored fused vector at `l` is the sum over
  the experts of that weight times the expert's score. Each matrix product is read as a sum over the contracted
  coordinate, each column or row broadcast as the operand's entry, each sum over the expert axis as a sum over
  eight coordinates; the factors of every product are then put in the order of the edge-major formula.
-/
import proofs.«155973_g88742614270593_cont_sun_c4_34_44_alg».proof.Proof.Gen.KernelIdeal.Skeleton
import proofs.«155973_g88742614270593_cont_sun_c4_34_44_alg».proof.Proof.Gater
import proofs.«155973_g88742614270593_cont_sun_c4_34_44_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Gater Idealize.ShloMosaic Idealize.ShloMosaic.ValueIdx

/-! ## A column spread over the lanes -/

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The three matrix products at an entry -/

theorem hiddenDot_lhs0 (i : S32x128000.Idx) (q : dot_S32x16_S16x128000_S32x128000_1_0_0_1_n_n.contr.Idx) : (dot_S32x16_S16x128000_S32x128000_1_0_0_1_n_n.lhsIdx i q 0).val = (i 0).val := by
  unfold DotDims.lhsIdx
  rw [dif_neg (show ¬(0 : Fin S32x16.rank) ∈ dot_S32x16_S16x128000_S32x128000_1_0_0_1_n_n.lhsBatch by decide), dif_pos (show (0 : Fin S32x16.rank) ∈ dot_S32x16_S16x128000_S32x128000_1_0_0_1_n_n.lhsNonContracting by decide)]
  rfl
theorem hiddenDot_rhs1 (i : S32x128000.Idx) (q : dot_S32x16_S16x128000_S32x128000_1_0_0_1_n_n.contr.Idx) : (dot_S32x16_S16x128000_S32x128000_1_0_0_1_n_n.rhsIdx i q 1).val = (i 1).val := by
  unfold DotDims.rhsIdx
  rw [dif_neg (show ¬(1 : Fin S16x128000.rank) ∈ dot_S32x16_S16x128000_S32x128000_1_0_0_1_n_n.rhsBatch by decide), dif_pos (show (1 : Fin S16x128000.rank) ∈ dot_S32x16_S16x128000_S32x128000_1_0_0_1_n_n.rhsNonContracting by decide)]
  rfl
/-- The product of a [32, 16] matrix and a [16, 128000] matrix into the zero matrix, at `(r, c)`: `∑ₖ a (r, k) · b (k, c)`. -/
theorem hiddenDot_apply (a : FVec Ideal S32x16 .bf16) (b : FVec Ideal S16x128000 .bf16) (r : Fin 32) (c : Fin 128000) :
    matmul dot_S32x16_S16x128000_S32x128000_1_0_0_1_n_n none a b (constant S32x128000 .f32 0x00000000#32) (ix2 r c) = ∑ k : Fin 16, a (ix2 r k) * b (ix2 k c) := by
  refine (Ideal.matmul_constant_zero_apply dot_S32x16_S16x128000_S32x128000_1_0_0_1_n_n none a b (ix2 r c)).trans ?_
  rw [← Equiv.sum_comp (contrEquiv1 dot_S32x16_S16x128000_S32x128000_1_0_0_1_n_n 16 rfl rfl).symm]
  refine Finset.sum_congr rfl fun k _ => ?_
  have hk := contrEquiv1_symm_val dot_S32x16_S16x128000_S32x128000_1_0_0_1_n_n 16 rfl rfl k
  have el : dot_S32x16_S16x128000_S32x128000_1_0_0_1_n_n.lhsIdx (ix2 r c) ((contrEquiv1 dot_S32x16_S16x128000_S32x128000_1_0_0_1_n_n 16 rfl rfl).symm k) = ix2 r k := funext fun ax => Fin.ext (by
    match ax with
    | ⟨0, _⟩ => exact hiddenDot_lhs0 _ _
    | ⟨1, _⟩ => exact ((dot_S32x16_S16x128000_S32x128000_1_0_0_1_n_n).lhsIdx_val_of_single rfl _ _).trans hk)
  have er : dot_S32x16_S16x128000_S32x128000_1_0_0_1_n_n.rhsIdx (ix2 r c) ((contrEquiv1 dot_S32x16_S16x128000_S32x128000_1_0_0_1_n_n 16 rfl rfl).symm k) = ix2 k c := funext fun ax => Fin.ext (by
    match ax with
    | ⟨0, _⟩ => exact ((dot_S32x16_S16x128000_S32x128000_1_0_0_1_n_n).rhsIdx_val_of_single rfl _ _).trans hk
    | ⟨1, _⟩ => exact hiddenDot_rhs1 _ _)
  rw [el, er]

theorem logitDot_lhs0 (i : S8x128000.Idx) (q : dot_S8x32_S32x128000_S8x128000_1_0_0_1_n_n.contr.Idx) : (dot_S8x32_S32x128000_S8x128000_1_0_0_1_n_n.lhsIdx i q 0).val = (i 0).val := by
  unfold DotDims.lhsIdx
  rw [dif_neg (show ¬(0 : Fin S8x32.rank) ∈ dot_S8x32_S32x128000_S8x128000_1_0_0_1_n_n.lhsBatch by decide), dif_pos (show (0 : Fin S8x32.rank) ∈ dot_S8x32_S32x128000_S8x128000_1_0_0_1_n_n.lhsNonContracting by decide)]
  rfl
theorem logitDot_rhs1 (i : S8x128000.Idx) (q : dot_S8x32_S32x128000_S8x128000_1_0_0_1_n_n.contr.Idx) : (dot_S8x32_S32x128000_S8x128000_1_0_0_1_n_n.rhsIdx i q 1).val = (i 1).val := by
  unfold DotDims.rhsIdx
  rw [dif_neg (show ¬(1 : Fin S32x128000.rank) ∈ dot_S8x32_S32x128000_S8x128000_1_0_0_1_n_n.rhsBatch by decide), dif_pos (show (1 : Fin S32x128000.rank) ∈ dot_S8x32_S32x128000_S8x128000_1_0_0_1_n_n.rhsNonContracting by decide)]
  rfl
/-- The product of a [8, 32] matrix and a [32, 128000] matrix into the zero matrix, at `(r, c)`: `∑ₖ a (r, k) · b (k, c)`. -/
theorem logitDot_apply (a : FVec Ideal S8x32 .f32) (b : FVec Ideal S32x128000 .f32) (r : Fin 8) (c : Fin 128000) :
    matmul dot_S8x32_S32x128000_S8x128000_1_0_0_1_n_n none a b (constant S8x128000 .f32 0x00000000#32) (ix2 r c) = ∑ k : Fin 32, a (ix2 r k) * b (ix2 k c) := by
  refine (Ideal.matmul_constant_zero_apply dot_S8x32_S32x128000_S8x128000_1_0_0_1_n_n none a b (ix2 r c)).trans ?_
  rw [← Equiv.sum_comp (contrEquiv1 dot_S8x32_S32x128000_S8x128000_1_0_0_1_n_n 32 rfl rfl).symm]
  refine Finset.sum_congr rfl fun k _ => ?_
  have hk := contrEquiv1_symm_val dot_S8x32_S32x128000_S8x128000_1_0_0_1_n_n 32 rfl rfl k
  have el : dot_S8x32_S32x128000_S8x128000_1_0_0_1_n_n.lhsIdx (ix2 r c) ((contrEquiv1 dot_S8x32_S32x128000_S8x128000_1_0_0_1_n_n 32 rfl rfl).symm k) = ix2 r k := funext fun ax => Fin.ext (by
    match ax with
    | ⟨0, _⟩ => exact logitDot_lhs0 _ _
    | ⟨1, _⟩ => exact ((dot_S8x32_S32x128000_S8x128000_1_0_0_1_n_n).lhsIdx_val_of_single rfl _ _).trans hk)
  have er : dot_S8x32_S32x128000_S8x128000_1_0_0_1_n_n.rhsIdx (ix2 r c) ((contrEquiv1 dot_S8x32_S32x128000_S8x128000_1_0_0_1_n_n 32 rfl rfl).symm k) = ix2 k c := funext fun ax => Fin.ext (by
    match ax with
    | ⟨0, _⟩ => exact ((dot_S8x32_S32x128000_S8x128000_1_0_0_1_n_n).rhsIdx_val_of_single rfl _ _).trans hk
    | ⟨1, _⟩ => exact logitDot_rhs1 _ _)
  rw [el, er]

theorem scoreDot_lhs0 (i : S8x128000.Idx) (q : dot_S8x16_S16x128000_S8x128000_1_0_0_1_n_n.contr.Idx) : (dot_S8x16_S16x128000_S8x128000_1_0_0_1_n_n.lhsIdx i q 0).val = (i 0).val := by
  unfold DotDims.lhsIdx
  rw [dif_neg (show ¬(0 : Fin S8x16.rank) ∈ dot_S8x16_S16x128000_S8x128000_1_0_0_1_n_n.lhsBatch by decide), dif_pos (show (0 : Fin S8x16.rank) ∈ dot_S8x16_S16x128000_S8x128000_1_0_0_1_n_n.lhsNonContracting by decide)]
  rfl
theorem scoreDot_rhs1 (i : S8x128000.Idx) (q : dot_S8x16_S16x128000_S8x128000_1_0_0_1_n_n.contr.Idx) : (dot_S8x16_S16x128000_S8x128000_1_0_0_1_n_n.rhsIdx i q 1).val = (i 1).val := by
  unfold DotDims.rhsIdx
  rw [dif_neg (show ¬(1 : Fin S16x128000.rank) ∈ dot_S8x16_S16x128000_S8x128000_1_0_0_1_n_n.rhsBatch by decide), dif_pos (show (1 : Fin S16x128000.rank) ∈ dot_S8x16_S16x128000_S8x128000_1_0_0_1_n_n.rhsNonContracting by decide)]
  rfl
/-- The product of a [8, 16] matrix and a [16, 128000] matrix into the zero matrix, at `(r, c)`: `∑ₖ a (r, k) · b (k, c)`. -/
theorem scoreDot_apply (a : FVec Ideal S8x16 .bf16) (b : FVec Ideal S16x128000 .bf16) (r : Fin 8) (c : Fin 128000) :
    matmul dot_S8x16_S16x128000_S8x128000_1_0_0_1_n_n none a b (constant S8x128000 .f32 0x00000000#32) (ix2 r c) = ∑ k : Fin 16, a (ix2 r k) * b (ix2 k c) := by
  refine (Ideal.matmul_constant_zero_apply dot_S8x16_S16x128000_S8x128000_1_0_0_1_n_n none a b (ix2 r c)).trans ?_
  rw [← Equiv.sum_comp (contrEquiv1 dot_S8x16_S16x128000_S8x128000_1_0_0_1_n_n 16 rfl rfl).symm]
  refine Finset.sum_congr rfl fun k _ => ?_
  have hk := contrEquiv1_symm_val dot_S8x16_S16x128000_S8x128000_1_0_0_1_n_n 16 rfl rfl k
  have el : dot_S8x16_S16x128000_S8x128000_1_0_0_1_n_n.lhsIdx (ix2 r c) ((contrEquiv1 dot_S8x16_S16x128000_S8x128000_1_0_0_1_n_n 16 rfl rfl).symm k) = ix2 r k := funext fun ax => Fin.ext (by
    match ax with
    | ⟨0, _⟩ => exact scoreDot_lhs0 _ _
    | ⟨1, _⟩ => exact ((dot_S8x16_S16x128000_S8x128000_1_0_0_1_n_n).lhsIdx_val_of_single rfl _ _).trans hk)
  have er : dot_S8x16_S16x128000_S8x128000_1_0_0_1_n_n.rhsIdx (ix2 r c) ((contrEquiv1 dot_S8x16_S16x128000_S8x128000_1_0_0_1_n_n 16 rfl rfl).symm k) = ix2 k c := funext fun ax => Fin.ext (by
    match ax with
    | ⟨0, _⟩ => exact ((dot_S8x16_S16x128000_S8x128000_1_0_0_1_n_n).rhsIdx_val_of_single rfl _ _).trans hk
    | ⟨1, _⟩ => exact scoreDot_rhs1 _ _)
  rw [el, er]

/-! ## The lane sum over the eight experts -/

/-- The sum over the expert axis of an `[8, 128000]` block, at lane `l`: `∑_q src (q, l)`. -/
theorem laneSum_apply (src : FVec Ideal S8x128000 .f32) (l : Fin 128000) :
    multiReduction .add [0] S128000 src 0x00000000#32 reduces_S8x128000_S128000 (.inl rfl) rfl (ix1 l) = ∑ q : Fin 8, src (ix2 q l) := by
  refine (Ideal.multiReduction_add_single src 0x00000000#32 reduces_S8x128000_S128000 (.inl rfl) rfl (ix1 l)).trans ?_
  refine Finset.sum_congr rfl fun q _ => congrArg src ?_
  exact funext fun ax => Fin.ext (by match ax with | ⟨0, _⟩ => rfl | ⟨1, _⟩ => rfl)

/-! ## The body's values, named stage by stage -/

/-- The rounding of the feature block to bf16 is the identity on the extended reals. -/
theorem features_apply (v0 : Vec Ideal S16x128000 .f32) (i : S16x128000.Idx) : k0_pay1 v0 i = v0 i := by
  unfold k0_pay1
  show (shapeCast S16x128000 v0 shapeCasts_S16x128000_S16x128000) i = v0 i
  rw [shapeCast_self]

/-- The hidden layer of the block: unit `j`, lane `l`. -/
def hiddenBlock (v0 : Vec Ideal S16x128000 .f32) (v3 : Vec Ideal S32x16 .bf16) (v6 : Vec Ideal S32x1 .f32) : FVec Ideal S32x128000 .f32 :=
  maximumf (addf (matmul dot_S32x16_S16x128000_S32x128000_1_0_0_1_n_n none (shapeCast S32x16 v3 shapeCasts_S32x16_S32x16 : FVec Ideal S32x16 .bf16) (k0_pay1 v0) (constant S32x128000 .f32 0x00000000#32))
      (broadcastTo S32x128000 (shapeCast S32x1 v6 shapeCasts_S32x1_S32x1 : FVec Ideal S32x1 .f32) broadcasts_S32x1_S32x128000))
    (broadcast S32x128000 (Scalar.ofBits .f32 0x00000000#32))

/-- The logits of the block: expert `q`, lane `l`. -/
def logitBlock (v0 : Vec Ideal S16x128000 .f32) (v3 : Vec Ideal S32x16 .bf16) (v6 : Vec Ideal S32x1 .f32) (v12 : Vec Ideal S8x32 .f32) (v15 : Vec Ideal S8x1 .f32) : FVec Ideal S8x128000 .f32 :=
  addf (matmul dot_S8x32_S32x128000_S8x128000_1_0_0_1_n_n none (shapeCast S8x32 v12 shapeCasts_S8x32_S8x32 : FVec Ideal S8x32 .f32) (hiddenBlock v0 v3 v6) (constant S8x128000 .f32 0x00000000#32))
    (broadcastTo S8x128000 (shapeCast S8x1 v15 shapeCasts_S8x1_S8x1 : FVec Ideal S8x1 .f32) broadcasts_S8x1_S8x128000)

/-- The softmax of a block of logits over the expert axis: the exponential times the reciprocal of the lane's sum. -/
def softBlock (L : FVec Ideal S8x128000 .f32) : FVec Ideal S8x128000 .f32 :=
  mulf (exp L) (broadcastTo S8x128000 (divf (broadcast S1x128000 (Scalar.ofBits .f32 0x3F800000#32))
    (shapeCast S1x128000 (multiReduction .add [0] S128000 (exp L) 0x00000000#32 reduces_S8x128000_S128000 (.inl rfl) rfl) shapeCasts_S128000_S1x128000)) broadcasts_S1x128000_S8x128000)

/-- The expert scores of the block: expert `q`, lane `l`. -/
def scoreBlock (v0 : Vec Ideal S16x128000 .f32) (v26 : Vec Ideal S8x16 .bf16) : FVec Ideal S8x128000 .f32 :=
  matmul dot_S8x16_S16x128000_S8x128000_1_0_0_1_n_n none (shapeCast S8x16 v26 shapeCasts_S8x16_S8x16 : FVec Ideal S8x16 .bf16) (k0_pay1 v0) (constant S8x128000 .f32 0x00000000#32)

set_option maxRecDepth 65536 in
/-- The stored gate block is the softmax of the logit block. -/
theorem gatePayload_eq (v0 : Vec Ideal S16x128000 .f32) (v3 : Vec Ideal S32x16 .bf16) (v6 : Vec Ideal S32x1 .f32) (v12 : Vec Ideal S8x32 .f32) (v15 : Vec Ideal S8x1 .f32) :
    k0_pay2 v0 v3 v6 v12 v15 = softBlock (logitBlock v0 v3 v6 v12 v15) := rfl

set_option maxRecDepth 65536 in
/-- The stored fused vector is the lane sum of the gate block times the score block. -/
theorem fusedPayload_eq (v0 : Vec Ideal S16x128000 .f32) (v3 : Vec Ideal S32x16 .bf16) (v6 : Vec Ideal S32x1 .f32) (v12 : Vec Ideal S8x32 .f32) (v15 : Vec Ideal S8x1 .f32) (v26 : Vec Ideal S8x16 .bf16) :
    k0_pay3 v0 v3 v6 v12 v15 v26
      = multiReduction .add [0] S128000 (mulf (softBlock (logitBlock v0 v3 v6 v12 v15)) (scoreBlock v0 v26)) 0x00000000#32 reduces_S8x128000_S128000 (.inl rfl) rfl := rfl

/-! ## Each stage at an entry, in the edge-major formula's terms -/

/-- Hidden unit `j` of the block's edge `l`: the weights are stored unit-major and the features feature-major, so
    the product is `∑ₖ w (j, k) · x (k, l)`, the edge-major `∑ₖ xₖ · W1ₖⱼ` with its factors swapped. -/
theorem hiddenBlock_apply (v0 : Vec Ideal S16x128000 .f32) (v3 : Vec Ideal S32x16 .bf16) (v6 : Vec Ideal S32x1 .f32) (j : Fin 32) (l : Fin 128000) :
    hiddenBlock v0 v3 v6 (ix2 j l)
      = Cert.Gater.hidden (fun k => v0 (ix2 k l)) (fun k j => v3 (ix2 j k)) (fun j => v6 (ix2 j (0 : Fin 1))) j := by
  unfold hiddenBlock Cert.Gater.hidden
  rw [maximumf_apply, addf_apply, hiddenDot_apply, broadcastTo_a1_ab_apply, shapeCast_self, shapeCast_self, broadcast_apply]
  refine congrArg₂ max (congrArg (· + v6 (ix2 j (0 : Fin 1))) (Finset.sum_congr rfl fun k _ => ?_)) Ideal.ofBits_zero_f32
  rw [features_apply, mul_comm]

/-- Logit `q` of the block's edge `l`. -/
theorem logitBlock_apply (v0 : Vec Ideal S16x128000 .f32) (v3 : Vec Ideal S32x16 .bf16) (v6 : Vec Ideal S32x1 .f32) (v12 : Vec Ideal S8x32 .f32) (v15 : Vec Ideal S8x1 .f32) (q : Fin 8) (l : Fin 128000) :
    logitBlock v0 v3 v6 v12 v15 (ix2 q l)
      = logit (fun k => v0 (ix2 k l)) (fun k j => v3 (ix2 j k)) (fun j => v6 (ix2 j (0 : Fin 1))) (fun j q => v12 (ix2 q j)) (fun q => v15 (ix2 q (0 : Fin 1))) q := by
  unfold logitBlock logit
  rw [addf_apply, logitDot_apply, broadcastTo_a1_ab_apply, shapeCast_self, shapeCast_self]
  refine congrArg (· + v15 (ix2 q (0 : Fin 1))) (Finset.sum_congr rfl fun j _ => ?_)
  rw [hiddenBlock_apply, mul_comm]

/-- The softmax block at `(q, l)`: the gate of lane `l`'s eight logits at expert `q`. -/
theorem softBlock_apply (L : FVec Ideal S8x128000 .f32) (q : Fin 8) (l : Fin 128000) :
    softBlock L (ix2 q l) = gate (fun p => L (ix2 p l)) q := by
  unfold softBlock gate
  rw [mulf_apply, broadcastTo_1b_ab_apply, divf_apply, broadcast_apply, shapeCast_a_1a_apply, laneSum_apply]
  show Ideal.exp (L (ix2 q l)) * Ideal.div (Ideal.ofBits .f32 0x3F800000#32) (∑ p : Fin 8, Ideal.exp (L (ix2 p l))) = _
  rw [Cert.Gater.Consts.ofBits_one]

/-- Score `q` of the block's edge `l`. -/
theorem scoreBlock_apply (v0 : Vec Ideal S16x128000 .f32) (v26 : Vec Ideal S8x16 .bf16) (q : Fin 8) (l : Fin 128000) :
    scoreBlock v0 v26 (ix2 q l) = score (fun k => v0 (ix2 k l)) (fun k q => v26 (ix2 q k)) q := by
  unfold scoreBlock score
  rw [scoreDot_apply, shapeCast_self]
  refine Finset.sum_congr rfl fun k _ => ?_
  rw [features_apply, mul_comm]

/-! ## The two stored values at an entry -/

/-- The stored gate block at `(q, l)`. -/
theorem gatePayload_apply (v0 : Vec Ideal S16x128000 .f32) (v3 : Vec Ideal S32x16 .bf16) (v6 : Vec Ideal S32x1 .f32) (v12 : Vec Ideal S8x32 .f32) (v15 : Vec Ideal S8x1 .f32) (q : Fin 8) (l : Fin 128000) :
    k0_pay2 v0 v3 v6 v12 v15 (ix2 q l)
      = gate (logit (fun k => v0 (ix2 k l)) (fun k j => v3 (ix2 j k)) (fun j => v6 (ix2 j (0 : Fin 1))) (fun j q => v12 (ix2 q j)) (fun q => v15 (ix2 q (0 : Fin 1)))) q := by
  rw [gatePayload_eq, softBlock_apply]
  exact congrArg (fun f => gate f q) (funext fun p => logitBlock_apply v0 v3 v6 v12 v15 p l)

/-- The stored fused vector at lane `l`. -/
theorem fusedPayload_apply (v0 : Vec Ideal S16x128000 .f32) (v3 : Vec Ideal S32x16 .bf16) (v6 : Vec Ideal S32x1 .f32) (v12 : Vec Ideal S8x32 .f32) (v15 : Vec Ideal S8x1 .f32) (v26 : Vec Ideal S8x16 .bf16) (l : Fin 128000) :
    k0_pay3 v0 v3 v6 v12 v15 v26 (ix1 l)
      = fuse (gate (logit (fun k => v0 (ix2 k l)) (fun k j => v3 (ix2 j k)) (fun j => v6 (ix2 j (0 : Fin 1))) (fun j q => v12 (ix2 q j)) (fun q => v15 (ix2 q (0 : Fin 1)))))
          (score (fun k => v0 (ix2 k l)) (fun k q => v26 (ix2 q k))) := by
  rw [fusedPayload_eq, laneSum_apply]
  unfold fuse
  refine Finset.sum_congr rfl fun q _ => ?_
  rw [mulf_apply, scoreBlock_apply, ← gatePayload_eq, gatePayload_apply]

end Cert.KernelIdeal.Body

end
-- ==== Proof.KernelArrays.lean ====
/-
  What the kernel region leaves in its two output arrays, as one function each of the arrays it reads.

  The grid has 25 points; point `t` reads the feature-major block of lanes `128000·t … 128000·t + 127999` and the
  five small arrays whole, and writes back the same lanes of the expert-major gate array and of the fused vector.
  A block's entry at lane `l` is the array's entry at edge `128000·t + l`, so what a point writes back is a block
  of one whole-array function; the 25 blocks tile the edges (the point that covers edge `e` is `e / 128000`), so
  each array ends as that function.
-/
import proofs.«155973_g88742614270593_cont_sun_c4_34_44_alg».proof.Proof.Gen.KernelIdeal.Frame
import proofs.«155973_g88742614270593_cont_sun_c4_34_44_alg».proof.Proof.KernelBody
import Idealize.ShloMosaic.Lib.Pipeline.Value

set_option maxRecDepth 16384

noncomputable section

namespace Cert.KernelIdeal.Arrays

open Cert.KernelIdeal Cert.KernelIdeal.Gen Cert.KernelIdeal.Body Cert.Gater Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The two results over the feature-major arrays -/

/-- The gate, expert-major: entry `(q, e)` from the feature-major features, the unit-major weights and the column biases. -/
def gateT (XT : S16x3200000.Idx → EReal) (W1T : S32x16.Idx → EReal) (B1C : S32x1.Idx → EReal) (W2T : S8x32.Idx → EReal)
    (B2C : S8x1.Idx → EReal) : S8x3200000.Idx → EReal :=
  fun i => gate (logit (fun k => XT (ix2 k (i 1))) (fun k j => W1T (ix2 j k)) (fun j => B1C (ix2 j (0 : Fin 1)))
    (fun j q => W2T (ix2 q j)) (fun q => B2C (ix2 q (0 : Fin 1)))) (i 0)

/-- The fused vector from the same arrays and the expert-major score weights. -/
def fusedT (XT : S16x3200000.Idx → EReal) (W1T : S32x16.Idx → EReal) (B1C : S32x1.Idx → EReal) (W2T : S8x32.Idx → EReal)
    (B2C : S8x1.Idx → EReal) (WPT : S8x16.Idx → EReal) : S3200000.Idx → EReal :=
  fun i => fuse (gate (logit (fun k => XT (ix2 k (i 0))) (fun k j => W1T (ix2 j k)) (fun j => B1C (ix2 j (0 : Fin 1)))
    (fun j q => W2T (ix2 q j)) (fun q => B2C (ix2 q (0 : Fin 1))))) (score (fun k => XT (ix2 k (i 0))) (fun k q => WPT (ix2 q k)))

/-! ## The index maps, decided over the 25 points -/

theorem zeros2 : (![0, 0] : Fin 2 → Nat) = fun _ => 0 := funext fun a => by fin_cases a <;> rfl
theorem zeros1 : (![0] : Fin 1 → Nat) = fun _ => 0 := funext fun a => by fin_cases a <;> rfl

/-- The three moving windows sit at lane block `t`; the five small ones at block zero. -/
theorem idx_facts : ∀ t : Fin cfg0.N,
    win0_0.index t (0 : Fin 2) = 0 ∧ win0_0.index t (1 : Fin 2) = t.val
    ∧ win0_6.index t (0 : Fin 2) = 0 ∧ win0_6.index t (1 : Fin 2) = t.val
    ∧ win0_7.index t (0 : Fin 1) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Edge `128000·t + l` of point `t`'s lane `l`. -/
def edgeOf (t : Fin cfg0.N) (l : Fin 128000) : Fin 3200000 :=
  ⟨t.val * 128000 + l.val, by have := t.isLt; have hN : cfg0.N = 25 := N_0; have := l.isLt; omega⟩

/-! ## A block's entry is an entry of its array -/

/-- The feature block of point `t` at `(k, l)` is the feature-major array at `(k, 128000·t + l)`. -/
theorem feat_read (c : Dev nD) (t : Fin cfg0.N) (k : Fin 16) (l : Fin 128000) :
    iblk m c 0 t (ix2 k l) = V m c main_call0_v0 (ix2 k (edgeOf t l)) := by
  obtain ⟨e00, e01, -⟩ := idx_facts t
  have h : ((cfg0.win 0).blk t).view.emb (ix2 k l) = ix2 k (edgeOf t l) := by
    funext a; apply Fin.ext
    match a with
    | ⟨0, _⟩ => show win0_0.index t (0 : Fin 2) * 16 + 1 * k.val = k.val; omega
    | ⟨1, _⟩ => show win0_0.index t (1 : Fin 2) * 128000 + 1 * l.val = t.val * 128000 + l.val; omega
  show V m c main_call0_v0 (((cfg0.win 0).blk t).view.emb (ix2 k l)) = V m c main_call0_v0 (ix2 k (edgeOf t l))
  rw [h]

/-- The first layer's weights are read whole at every point. -/
theorem w1_read (c : Dev nD) (t : Fin cfg0.N) (j : Fin 32) (k : Fin 16) :
    iblk m c 1 t (ix2 j k) = V m c main_call0_v2 (ix2 j k) := by
  obtain ⟨-, -, -, -, -, e10, e11, e20, e21, e30, e31, e40, e41, e50, e51⟩ := idx_facts t
  have h : ((cfg0.win 1).blk t).view.emb (ix2 j k) = ix2 j k := by
    funext ax; apply Fin.ext
    match ax with
    | ⟨0, _⟩ => show win0_1.index t (0 : Fin 2) * 32 + 1 * j.val = j.val; omega
    | ⟨1, _⟩ => show win0_1.index t (1 : Fin 2) * 16 + 1 * k.val = k.val; omega
  show V m c main_call0_v2 (((cfg0.win 1).blk t).view.emb (ix2 j k)) = V m c main_call0_v2 (ix2 j k)
  rw [h]

/-- The first layer's bias column is read whole at every point. -/
theorem b1_read (c : Dev nD) (t : Fin cfg0.N) (j : Fin 32) (u : Fin 1) :
    iblk m c 2 t (ix2 j u) = V m c main_call0_v6 (ix2 j u) := by
  obtain ⟨-, -, -, -, -, e10, e11, e20, e21, e30, e31, e40, e41, e50, e51⟩ := idx_facts t
  have h : ((cfg0.win 2).blk t).view.emb (ix2 j u) = ix2 j u := by
    funext ax; apply Fin.ext
    match ax with
    | ⟨0, _⟩ => show win0_2.index t (0 : Fin 2) * 32 + 1 * j.val = j.val; omega
    | ⟨1, _⟩ => show win0_2.index t (1 : Fin 2) * 1 + 1 * u.val = u.val; omega
  show V m c main_call0_v6 (((cfg0.win 2).blk t).view.emb (ix2 j u)) = V m c main_call0_v6 (ix2 j u)
  rw [h]

/-- The second layer's weights are read whole at every point. -/
theorem w2_read (c : Dev nD) (t : Fin cfg0.N) (q : Fin 8) (j : Fin 32) :
    iblk m c 3 t (ix2 q j) = V m c main_call0_v3 (ix2 q j) := by
  obtain ⟨-, -, -, -, -, e10, e11, e20, e21, e30, e31, e40, e41, e50, e51⟩ := idx_facts t
  have h : ((cfg0.win 3).blk t).view.emb (ix2 q j) = ix2 q j := by
    funext ax; apply Fin.ext
    match ax with
    | ⟨0, _⟩ => show win0_3.index t (0 : Fin 2) * 8 + 1 * q.val = q.val; omega
    | ⟨1, _⟩ => show win0_3.index t (1 : Fin 2) * 32 + 1 * j.val = j.val; omega
  show V m c main_call0_v3 (((cfg0.win 3).blk t).view.emb (ix2 q j)) = V m c main_call0_v3 (ix2 q j)
  rw [h]

/-- The second layer's bias column is read whole at every point. -/
theorem b2_read (c : Dev nD) (t : Fin cfg0.N) (q : Fin 8) (u : Fin 1) :
    iblk m c 4 t (ix2 q u) = V m c main_call0_v7 (ix2 q u) := by
  obtain ⟨-, -, -, -, -, e10, e11, e20, e21, e30, e31, e40, e41, e50, e51⟩ := idx_facts t
  have h : ((cfg0.win 4).blk t).view.emb (ix2 q u) = ix2 q u := by
    funext ax; apply Fin.ext
    match ax with
    | ⟨0, _⟩ => show win0_4.index t (0 : Fin 2) * 8 + 1 * q.val = q.val; omega
    | ⟨1, _⟩ => show win0_4.index t (1 : Fin 2) * 1 + 1 * u.val = u.val; omega
  show V m c main_call0_v7 (((cfg0.win 4).blk t).view.emb (ix2 q u)) = V m c main_call0_v7 (ix2 q u)
  rw [h]

/-- The score weights are read whole at every point. -/
theorem wp_read (c : Dev nD) (t : Fin cfg0.N) (q : Fin 8) (k : Fin 16) :
    iblk m c 5 t (ix2 q k) = V m c main_call0_v5 (ix2 q k) := by
  obtain ⟨-, -, -, -, -, e10, e11, e20, e21, e30, e31, e40, e41, e50, e51⟩ := idx_facts t
  have h : ((cfg0.win 5).blk t).view.emb (ix2 q k) = ix2 q k := by
    funext ax; apply Fin.ext
    match ax with
    | ⟨0, _⟩ => show win0_5.index t (0 : Fin 2) * 8 + 1 * q.val = q.val; omega
    | ⟨1, _⟩ => show win0_5.index t (1 : Fin 2) * 16 + 1 * k.val = k.val; omega
  show V m c main_call0_v5 (((cfg0.win 5).blk t).view.emb (ix2 q k)) = V m c main_call0_v5 (ix2 q k)
  rw [h]

/-! ## What a point writes back -/

/-- Point `t` writes back to the gate array the block of `gateT` at its lanes. -/
theorem flushedGate_eq (c : Dev nD) (t : Fin cfg0.N) :
    (dats m 0 c).flushed 6 t = ((cfg0.win 6).blk t).view.read (Elt Ideal)
      (gateT (V m c main_call0_v0) (V m c main_call0_v2) (V m c main_call0_v6) (V m c main_call0_v3) (V m c main_call0_v7)) := by
  show (cfg0.win 6).cut (grid0.coords t) ((dats m 0 c).after 6 t) = _
  rw [after0_6]
  unfold out0_6
  rw [View.canon_unit_zero zeros2]
  simp only [View.ld_unit_zero (S := S16x128000) zeros2, View.ld_unit_zero (S := S32x16) zeros2, View.ld_unit_zero (S := S32x1) zeros2,
    View.ld_unit_zero (S := S8x32) zeros2, View.ld_unit_zero (S := S8x1) zeros2]
  obtain ⟨-, -, e60, e61, -⟩ := idx_facts t
  funext j
  obtain ⟨q, l, rfl⟩ : ∃ (q : Fin 8) (l : Fin 128000), j = ix2 q l := ⟨j 0, j 1, eq_ix2 j⟩
  have h : ((cfg0.win 6).blk t).view.emb (ix2 q l) = ix2 q (edgeOf t l) := by
    funext ax; apply Fin.ext
    match ax with
    | ⟨0, _⟩ => show win0_6.index t (0 : Fin 2) * 8 + 1 * q.val = q.val; omega
    | ⟨1, _⟩ => show win0_6.index t (1 : Fin 2) * 128000 + 1 * l.val = t.val * 128000 + l.val; omega
  show k0_pay2 (iblk m c 0 t) (iblk m c 1 t) (iblk m c 2 t) (iblk m c 3 t) (iblk m c 4 t) (ix2 q l)
    = gateT (V m c main_call0_v0) (V m c main_call0_v2) (V m c main_call0_v6) (V m c main_call0_v3) (V m c main_call0_v7) (((cfg0.win 6).blk t).view.emb (ix2 q l))
  rw [h]
  refine (gatePayload_apply (iblk m c 0 t) (iblk m c 1 t) (iblk m c 2 t) (iblk m c 3 t) (iblk m c 4 t) q l).trans ?_
  unfold gateT
  simp only [feat_read m c t, w1_read m c t, b1_read m c t, w2_read m c t, b2_read m c t]

/-- Point `t` writes back to the fused vector the block of `fusedT` at its lanes. -/
theorem flushedFused_eq (c : Dev nD) (t : Fin cfg0.N) :
    (dats m 0 c).flushed 7 t = ((cfg0.win 7).blk t).view.read (Elt Ideal)
      (fusedT (V m c main_call0_v0) (V m c main_call0_v2) (V m c main_call0_v6) (V m c main_call0_v3) (V m c main_call0_v7) (V m c main_call0_v5)) := by
  show (cfg0.win 7).cut (grid0.coords t) ((dats m 0 c).after 7 t) = _
  rw [after0_7]
  unfold out0_7
  rw [View.canon_unit_zero zeros1]
  simp only [View.ld_unit_zero (S := S16x128000) zeros2, View.ld_unit_zero (S := S32x16) zeros2, View.ld_unit_zero (S := S32x1) zeros2,
    View.ld_unit_zero (S := S8x32) zeros2, View.ld_unit_zero (S := S8x1) zeros2, View.ld_unit_zero (S := S8x16) zeros2]
  obtain ⟨-, -, -, -, e7, -⟩ := idx_facts t
  funext j
  obtain ⟨l, rfl⟩ : ∃ l : Fin 128000, j = ix1 l := ⟨j 0, eq_ix1 j⟩
  have h : ((cfg0.win 7).blk t).view.emb (ix1 l) = ix1 (edgeOf t l) := by
    funext ax; apply Fin.ext
    match ax with
    | ⟨0, _⟩ => show win0_7.index t (0 : Fin 1) * 128000 + 1 * l.val = t.val * 128000 + l.val; omega
  show k0_pay3 (iblk m c 0 t) (iblk m c 1 t) (iblk m c 2 t) (iblk m c 3 t) (iblk m c 4 t) (iblk m c 5 t) (ix1 l)
    = fusedT (V m c main_call0_v0) (V m c main_call0_v2) (V m c main_call0_v6) (V m c main_call0_v3) (V m c main_call0_v7) (V m c main_call0_v5) (((cfg0.win 7).blk t).view.emb (ix1 l))
  rw [h]
  refine (fusedPayload_apply (iblk m c 0 t) (iblk m c 1 t) (iblk m c 2 t) (iblk m c 3 t) (iblk m c 4 t) (iblk m c 5 t) l).trans ?_
  unfold fusedT
  simp only [feat_read m c t, w1_read m c t, b1_read m c t, w2_read m c t, b2_read m c t, wp_read m c t]

/-! ## The 25 blocks tile each array -/

/-- An entry of the gate array is in point `t`'s block iff each coordinate is in the block's range. -/
theorem mem_blkGate (t : Fin cfg0.N) (i : S8x3200000.Idx) :
    i ∈ ((cfg0.win 6).blk t).view.set ↔ ∀ a : Fin 2, win0_6.index t a * S8x128000.size a ≤ (i a).val ∧ (i a).val < win0_6.index t a * S8x128000.size a + S8x128000.size a := by
  show i ∈ ((View.whole main_call0_v8_0).slice (win0_6.rect t)).set ↔ _
  rw [View.set_slice_whole, Rect.mem_set_unit]
  exact Iff.rfl

/-- Every entry of the gate array is in the block of point `e / 128000`. -/
theorem coverGate (i : S8x3200000.Idx) : ∃ t : Fin cfg0.N, (cfg0.win 6).flush t = true ∧ i ∈ ((cfg0.win 6).blk t).view.set := by
  have hi0 : (i 0).val < 8 := idx2_lt0 i
  have hi1 : (i 1).val < 3200000 := idx2_lt1 i
  have hN : cfg0.N = 25 := N_0
  obtain ⟨t, ht⟩ : ∃ t : Fin cfg0.N, t.val = (i 1).val / 128000 := ⟨⟨(i 1).val / 128000, by omega⟩, rfl⟩
  obtain ⟨-, -, e60, e61, -⟩ := idx_facts t
  refine ⟨t, flush0_6 t, ?_⟩
  rw [mem_blkGate]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128000 ≤ (i 1).val ∧ (i 1).val < win0_6.index t (1 : Fin 2) * 128000 + 128000; omega

/-- An entry of the fused vector is in point `t`'s block iff its coordinate is in the block's range. -/
theorem mem_blkFused (t : Fin cfg0.N) (i : S3200000.Idx) :
    i ∈ ((cfg0.win 7).blk t).view.set ↔ ∀ a : Fin 1, win0_7.index t a * S128000.size a ≤ (i a).val ∧ (i a).val < win0_7.index t a * S128000.size a + S128000.size a := by
  show i ∈ ((View.whole main_v0_0).slice (win0_7.rect t)).set ↔ _
  rw [View.set_slice_whole, Rect.mem_set_unit]
  exact Iff.rfl

/-- Every entry of the fused vector is in the block of point `e / 128000`. -/
theorem coverFused (i : S3200000.Idx) : ∃ t : Fin cfg0.N, (cfg0.win 7).flush t = true ∧ i ∈ ((cfg0.win 7).blk t).view.set := by
  have hi0 : (i 0).val < 3200000 := (i 0).isLt
  have hN : cfg0.N = 25 := N_0
  obtain ⟨t, ht⟩ : ∃ t : Fin cfg0.N, t.val = (i 0).val / 128000 := ⟨⟨(i 0).val / 128000, by omega⟩, rfl⟩
  obtain ⟨-, -, -, -, e7, -⟩ := idx_facts t
  refine ⟨t, flush0_7 t, ?_⟩
  rw [mem_blkFused]
  intro a
  match a with
  | ⟨0, _⟩ => show win0_7.index t (0 : Fin 1) * 128000 ≤ (i 0).val ∧ (i 0).val < win0_7.index t (0 : Fin 1) * 128000 + 128000; omega

/-! ## The two arrays after the region -/

/-- The gate array after the region. -/
theorem finalGate (c : Dev nD) : (dats m 0 c).arrAt 6 cfg0.N
    = gateT (V m c main_call0_v0) (V m c main_call0_v2) (V m c main_call0_v6) (V m c main_call0_v3) (V m c main_call0_v7) :=
  (dats m 0 c).arrAt_eq_of_cover 6 _ (fun t _ => flushedGate_eq m c t) coverGate

/-- The fused vector after the region. -/
theorem finalFused (c : Dev nD) : (dats m 0 c).arrAt 7 cfg0.N
    = fusedT (V m c main_call0_v0) (V m c main_call0_v2) (V m c main_call0_v6) (V m c main_call0_v3) (V m c main_call0_v7) (V m c main_call0_v5) :=
  (dats m 0 c).arrAt_eq_of_cover 7 _ (fun t _ => flushedFused_eq m c t) coverFused

end Cert.KernelIdeal.Arrays

end
-- ==== Proof.KernelHost.lean ====
/-
  What the kernel finds in its operand arrays, and what the program returns, entry by entry.

  Before the kernel region the program transposes the feature matrix and the three weight matrices, narrows two of the
  transposed weights to a shorter float format — the identity on the extended reals — and casts the two bias vectors
  to columns. So, read at an index, each operand array of the kernel is an input array at the swapped index (a
  transpose), or at the row coordinate (a vector cast to a column: position `i * 1 + 0` in row-major order is
  position `i`). After the region the program transposes the kernel's first output once more: entry `(e, q)` of the
  returned gate array is entry `(q, e)` of the array the region leaves.
-/
import proofs.«155973_g88742614270593_cont_sun_c4_34_44_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A vector cast to a column reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem featT_apply (c : Dev nD) (k : Fin 16) (e : Fin 3200000) :
    V m c main_call0_v0 (ix2 k e) = m ((c : Thread nD τ).loc main_arg0) (ix2 e k) := by
  have e0 : (V m c main_call0_v0 : S16x3200000.Idx → EReal)
      = transpose S16x3200000 [1, 0] (m ((c : Thread nD τ).loc main_arg0)) transposes_S3200000x16_S16x3200000_1_0 := by
    show StableHlo.after hostOps0 (fun b => m (c, b)) (Proc.devRef .tc main_call0_v0) = _
    after_results
    rfl
  rw [e0]
  exact transpose_ix2_apply _ _ k e

theorem w1T_apply (c : Dev nD) (j : Fin 32) (k : Fin 16) :
    V m c main_call0_v2 (ix2 j k) = m ((c : Thread nD τ).loc main_arg1) (ix2 k j) := by
  have e0 : (V m c main_call0_v2 : S32x16.Idx → EReal)
      = transpose S32x16 [1, 0] (m ((c : Thread nD τ).loc main_arg1)) transposes_S16x32_S32x16_1_0 := by
    show StableHlo.after hostOps0 (fun b => m (c, b)) (Proc.devRef .tc main_call0_v2) = _
    after_results
    rfl
  rw [e0]
  exact transpose_ix2_apply _ _ j k

theorem b1C_apply (c : Dev nD) (j : Fin 32) (u : Fin 1) :
    V m c main_call0_v6 (ix2 j u) = m ((c : Thread nD τ).loc main_arg2) (ix1 j) := by
  have e0 : (V m c main_call0_v6 : S32x1.Idx → EReal)
      = shapeCast S32x1 (m ((c : Thread nD τ).loc main_arg2)) shapeCasts_S32_S32x1 := by
    show StableHlo.after hostOps0 (fun b => m (c, b)) (Proc.devRef .tc main_call0_v6) = _
    after_results
    rfl
  rw [e0]
  exact shapeCast_a_a1_apply _ _ j u

theorem w2T_apply (c : Dev nD) (q : Fin 8) (j : Fin 32) :
    V m c main_call0_v3 (ix2 q j) = m ((c : Thread nD τ).loc main_arg3) (ix2 j q) := by
  have e0 : (V m c main_call0_v3 : S8x32.Idx → EReal)
      = transpose S8x32 [1, 0] (m ((c : Thread nD τ).loc main_arg3)) transposes_S32x8_S8x32_1_0 := by
    show StableHlo.after hostOps0 (fun b => m (c, b)) (Proc.devRef .tc main_call0_v3) = _
    after_results
    rfl
  rw [e0]
  exact transpose_ix2_apply _ _ q j

theorem b2C_apply (c : Dev nD) (q : Fin 8) (u : Fin 1) :
    V m c main_call0_v7 (ix2 q u) = m ((c : Thread nD τ).loc main_arg4) (ix1 q) := by
  have e0 : (V m c main_call0_v7 : S8x1.Idx → EReal)
      = shapeCast S8x1 (m ((c : Thread nD τ).loc main_arg4)) shapeCasts_S8_S8x1 := by
    show StableHlo.after hostOps0 (fun b => m (c, b)) (Proc.devRef .tc main_call0_v7) = _
    after_results
    rfl
  rw [e0]
  exact shapeCast_a_a1_apply _ _ q u

theorem wpT_apply (c : Dev nD) (q : Fin 8) (k : Fin 16) :
    V m c main_call0_v5 (ix2 q k) = m ((c : Thread nD τ).loc main_arg5) (ix2 k q) := by
  have e0 : (V m c main_call0_v5 : S8x16.Idx → EReal)
      = transpose S8x16 [1, 0] (m ((c : Thread nD τ).loc main_arg5)) transposes_S16x8_S8x16_1_0 := by
    show StableHlo.after hostOps0 (fun b => m (c, b)) (Proc.devRef .tc main_call0_v5) = _
    after_results
    rfl
  rw [e0]
  exact transpose_ix2_apply _ _ q k

theorem gateOut_apply (c : Dev nD) (e : Fin 3200000) (q : Fin 8) :
    Pipeline.afterTail₀ cfgs (dats m) 0 (V0 m) [hostOps1] c main_v0_1 (ix2 e q)
      = (dats m 0 c).arrAt 6 cfg0.N (ix2 q e) := by
  have e0 : (Pipeline.afterTail₀ cfgs (dats m) 0 (V0 m) [hostOps1] c main_v0_1 : S3200000x8.Idx → EReal)
      = transpose S3200000x8 [1, 0] ((dats m 0 c).arrAt 6 cfg0.N) transposes_S8x3200000_S3200000x8_1_0 := by
    unfold Pipeline.afterTail₀
    show StableHlo.after hostOps1 _ (Proc.devRef .tc main_v0_1) = _
    after_results
    refine (?_ : _ = transpose (s := S8x3200000) S3200000x8 [1, 0]
        (Pipeline.withArrays spec0 c (V0 m c) (fun w => (dats m 0 c).arrAt w cfg0.N)
          (Proc.devRef .tc (Pipeline.arrRef spec0 6)))
        transposes_S8x3200000_S3200000x8_1_0).trans ?_
    · rfl
    · exact congrArg (fun x => transpose (s := S8x3200000) S3200000x8 [1, 0] x transposes_S8x3200000_S3200000x8_1_0)
        (Pipeline.withArrays_arr spec0 launch0.win.arr_inj c _ _ 6)
  rw [e0]
  exact transpose_ix2_apply _ _ e q

end Cert.KernelIdeal.Host

end
-- ==== Proof.KernelRun.lean ====
/-
  The kernel's run, read: after it the first result holds the fused value of every edge and the second the gate
  of every edge, each as the edge-major function of the six argument arrays.

  The region reads the transposed features and weights and the column biases the lines before it prepare, so the
  feature-major functions of Proof/KernelArrays.lean, read at an entry, are the edge-major formula of
  Proof/Gater.lean at the same edge; the region writes the fused vector in place, and the line after the region
  transposes the expert-major gate array into the second result.
-/
import proofs.«155973_g88742614270593_cont_sun_c4_34_44_alg».proof.Proof.KernelArrays
import proofs.«155973_g88742614270593_cont_sun_c4_34_44_alg».proof.Proof.KernelHost

set_option maxRecDepth 16384

noncomputable section

namespace Cert.KernelIdeal.Run

open Cert.KernelIdeal Cert.KernelIdeal.Gen Cert.KernelIdeal.Arrays Cert.KernelIdeal.Host Cert.Gater Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The expert-major gate over the arrays the region finds, at `(q, e)`, is the gate of edge `e` at expert `q`. -/
theorem gateT_entry (c : Dev nD) (q : Fin 8) (e : Fin 3200000) :
    gateT (V m c main_call0_v0) (V m c main_call0_v2) (V m c main_call0_v6) (V m c main_call0_v3) (V m c main_call0_v7) (ix2 q e)
      = gate (logitsAt (m ((c : Thread nD τ).loc main_arg0)) (m ((c : Thread nD τ).loc main_arg1)) (m ((c : Thread nD τ).loc main_arg2))
          (m ((c : Thread nD τ).loc main_arg3)) (m ((c : Thread nD τ).loc main_arg4)) e) q := by
  unfold gateT logitsAt rowOf mat vec
  show gate (logit (fun k => V m c main_call0_v0 (ix2 k e)) (fun k j => V m c main_call0_v2 (ix2 j k)) (fun j => V m c main_call0_v6 (ix2 j (0 : Fin 1)))
    (fun j q => V m c main_call0_v3 (ix2 q j)) (fun q => V m c main_call0_v7 (ix2 q (0 : Fin 1)))) q = _
  simp only [featT_apply m c, w1T_apply m c, b1C_apply m c, w2T_apply m c, b2C_apply m c]

/-- The fused vector over the arrays the region finds, at `e`, is the fused value of edge `e`. -/
theorem fusedT_entry (c : Dev nD) (e : Fin 3200000) :
    fusedT (V m c main_call0_v0) (V m c main_call0_v2) (V m c main_call0_v6) (V m c main_call0_v3) (V m c main_call0_v7) (V m c main_call0_v5) (ix1 e)
      = fusedArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix1 e) := by
  unfold fusedT fusedArr logitsAt rowOf mat vec
  show fuse (gate (logit (fun k => V m c main_call0_v0 (ix2 k e)) (fun k j => V m c main_call0_v2 (ix2 j k)) (fun j => V m c main_call0_v6 (ix2 j (0 : Fin 1)))
    (fun j q => V m c main_call0_v3 (ix2 q j)) (fun q => V m c main_call0_v7 (ix2 q (0 : Fin 1))))) (score (fun k => V m c main_call0_v0 (ix2 k e)) (fun k q => V m c main_call0_v5 (ix2 q k))) = _
  simp only [featT_apply m c, w1T_apply m c, b1C_apply m c, w2T_apply m c, b2C_apply m c, wpT_apply m c]

/-- Every weakly fair execution of the kernel's program ends with the fused values in the first result, the gates in
    the second, and the six arguments as launched. -/
theorem run : θ_run defs (onTc (τ := τ) (main (F := Ideal))) ⟨m, fun _ => 0, ρ⟩ fun r => ∀ c : Dev nD,
      r.2.mem ((c : Thread nD τ).loc main_v0_0) = fusedArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_v0_1) = gateArr (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      (((h c).1 7).trans (finalFused m c)).trans (funext fun i => by
        obtain ⟨e, rfl⟩ : ∃ e : Fin 3200000, i = ix1 e := ⟨i 0, eq_ix1 i⟩
        exact fusedT_entry m c e),
      ((h c).2 main_v0_1 (Pipeline.mem_restRefs_of main_v0_1 (by decide) (by decide))).trans (funext fun i => by
        obtain ⟨e, q, rfl⟩ : ∃ (e : Fin 3200000) (q : Fin 8), i = ix2 e q := ⟨i 0, i 1, eq_ix2 i⟩
        rw [gateOut_apply m c e q, finalGate m c, gateT_entry m c q e]
        rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.RefValue.lean ====
/-
  The reference program computes the shifted softmax gate and the fused value.

  Read one element at a time, the reference is: sixteen features of an edge times the first weight matrix
  plus the first bias, cut below at zero (thirty-two hidden units); those times the second weight matrix plus
  the second bias, divided by the constant one (eight logits); every logit lowered by the row's largest one
  (a maximum folded from minus infinity, then once more taken against minus infinity); the exponential; the
  quotient by the row's sum of exponentials (the gate); and the sum over the eight experts of the gate times
  the expert score, the features times the third matrix (the fused value). These are, factor for factor,
  the functions `gateShifted` and `fuse` of the specification, for all extended-real inputs.
-/
import proofs.«155973_g88742614270593_cont_sun_c4_34_44_alg».proof.Proof.Gen.ReferenceIdeal.Read
import proofs.«155973_g88742614270593_cont_sun_c4_34_44_alg».proof.Proof.Gater

noncomputable section

namespace Cert.ReferenceIdeal.RefValue

open Cert.ReferenceIdeal Cert.ReferenceIdeal.Gen Cert.ReferenceIdeal.Read Cert.Gater Idealize.ShloMosaic Idealize.ShloMosaic.ValueIdx

/-! ## The three literals, and a quotient by one -/

/-- The pattern of `1.0` denotes the real one. -/
theorem ofBits_one : Ideal.ofBits .f32 0x3F800000#32 = ((1 : ℝ) : EReal) := by
  simp [Ideal.ofBits, Ideal.ieee, -EReal.coe_mul]; norm_num

/-- The pattern of `-inf` denotes minus infinity. -/
theorem ofBits_neg_inf : Ideal.ofBits .f32 0xFF800000#32 = ⊥ := by
  simp [Ideal.ofBits, Ideal.ieee]

/-- A quotient by the real one is the numerator. -/
private theorem div_one (x : EReal) : Ideal.div x ((1 : ℝ) : EReal) = x := by
  rw [Ideal.div_coe one_ne_zero]; simp

/-! ## The composed index functions at coordinates -/

section Indices
variable (e : Fin 3200000)

theorem lidx_v0 (j : Fin 32) (k : Fin 16) : lidx_main_v0 (ix2 e j) k = ix2 e k :=
  funext fun a => Fin.ext (by match a with | ⟨0, _⟩ => rfl | ⟨1, _⟩ => rfl)
theorem ridx_v0 (j : Fin 32) (k : Fin 16) : ridx_main_v0 (ix2 e j) k = ix2 k j :=
  funext fun a => Fin.ext (by match a with | ⟨0, _⟩ => rfl | ⟨1, _⟩ => rfl)
theorem idx_v1_v2 (j : Fin 32) : idx_main_v1 (idx_main_v2 (ix2 e j)) = ix1 j :=
  funext fun a => Fin.ext (by match a with | ⟨0, _⟩ => rfl)
theorem lidx_v5 (q : Fin 8) (j : Fin 32) : lidx_main_v5 (ix2 e q) j = ix2 e j :=
  funext fun a => Fin.ext (by match a with | ⟨0, _⟩ => rfl | ⟨1, _⟩ => rfl)
theorem ridx_v5 (q : Fin 8) (j : Fin 32) : ridx_main_v5 (ix2 e q) j = ix2 j q :=
  funext fun a => Fin.ext (by match a with | ⟨0, _⟩ => rfl | ⟨1, _⟩ => rfl)
theorem idx_v6_v7 (q : Fin 8) : idx_main_v6 (idx_main_v7 (ix2 e q)) = ix1 q :=
  funext fun a => Fin.ext (by match a with | ⟨0, _⟩ => rfl)
theorem idx_v14_v15 (q : Fin 8) : idx_main_v14 (idx_main_v15 (ix2 e q)) = ix1 e :=
  funext fun a => Fin.ext (by match a with | ⟨0, _⟩ => rfl)
theorem idx_v18 (k : Fin 8) : idx_main_v18 (ix1 e) k = ix2 e k :=
  funext fun a => Fin.ext (by match a with | ⟨0, _⟩ => rfl | ⟨1, _⟩ => rfl)
theorem idx_v19_v20 (q : Fin 8) : idx_main_v19 (idx_main_v20 (ix2 e q)) = ix1 e :=
  funext fun a => Fin.ext (by match a with | ⟨0, _⟩ => rfl)
theorem lidx_v22 (q : Fin 8) (k : Fin 16) : lidx_main_v22 (ix2 e q) k = ix2 e k :=
  funext fun a => Fin.ext (by match a with | ⟨0, _⟩ => rfl | ⟨1, _⟩ => rfl)
theorem ridx_v22 (q : Fin 8) (k : Fin 16) : ridx_main_v22 (ix2 e q) k = ix2 k q :=
  funext fun a => Fin.ext (by match a with | ⟨0, _⟩ => rfl | ⟨1, _⟩ => rfl)
theorem idx_v24 (k : Fin 8) : idx_main_v24 (ix1 e) k = ix2 e k :=
  funext fun a => Fin.ext (by match a with | ⟨0, _⟩ => rfl | ⟨1, _⟩ => rfl)

end Indices

section Stages
variable (x0 : (⟨S3200000x16, .f32⟩ : BufTy).Contents (Elt Ideal)) (x1 : (⟨S16x32, .f32⟩ : BufTy).Contents (Elt Ideal))
  (x2 : (⟨S32, .f32⟩ : BufTy).Contents (Elt Ideal)) (x3 : (⟨S32x8, .f32⟩ : BufTy).Contents (Elt Ideal))
  (x4 : (⟨S8, .f32⟩ : BufTy).Contents (Elt Ideal)) (x5 : (⟨S16x8, .f32⟩ : BufTy).Contents (Elt Ideal))

/-! ## The hidden layer and the logits -/

/-- Hidden unit `j` of edge `e`. -/
theorem hidden_at (e : Fin 3200000) (j : Fin 32) :
    val_main_v4 (F := Ideal) x0 x1 x2 (ix2 e j) = hidden (rowOf x0 e) (mat x1) (vec x2) j := by
  rw [val_main_v4_apply, val_main_v3_apply, val_main_v0_apply, val_main_v2_apply, val_main_v1_apply,
    val_main_call0_v0_apply, val_main_call0_cst_apply, idx_v1_v2]
  simp only [lidx_v0, ridx_v0, Ideal.ofBits_def, Ideal.ofBits_zero_f32, Ideal.addf_def, Ideal.maximumf_def]
  rfl

/-- Logit `q` of edge `e`. -/
theorem logit_at (e : Fin 3200000) (q : Fin 8) :
    val_main_v10 (F := Ideal) x0 x1 x2 x3 x4 (ix2 e q) = logitsAt x0 x1 x2 x3 x4 e q := by
  rw [val_main_v10_apply, val_main_v9_apply, val_main_cst_apply, val_main_v8_apply, val_main_v5_apply,
    val_main_v7_apply, val_main_v6_apply, idx_v6_v7]
  simp only [lidx_v5, ridx_v5, hidden_at, Ideal.ofBits_def, ofBits_one, Ideal.hostDivf_def, div_one, Ideal.addf_def]
  rfl

/-! ## The row maximum

The maximum over the eight experts is a fold over an axis, not one element of its operand. For a commutative and
associative body it is the fold of the body over that axis's coordinates from the initial value. -/

/-- The source index over edge `e` with expert coordinate `k` is `(e, k)`. -/
theorem lift_at (h : S3200000x8.Reduces [1] S3200000) (e : Fin 3200000) (k : Fin 8) :
    h.lift (ix1 e) k = ix2 e k :=
  funext fun a => Fin.ext (by match a with | ⟨0, _⟩ => rfl | ⟨1, _⟩ => rfl)

/-- A maximum-reduce over the expert axis, at edge `e`: the fold of `max` over the eight experts from the initial value. -/
theorem reduce_max_at (y : S3200000x8.Idx → EReal) (init : S_.Idx → EReal) (e : Fin 3200000) :
    Host.reduce (FloatOps.maximumf (F := Ideal) (φ := .f32)) y init reducesTo_S3200000x8_S3200000_d1 h_S_ (ix1 e)
      = (Finset.univ : Finset (Fin 8)).fold max (init (Shape.Idx.first h_S_)) (fun k => y (ix2 e k)) := by
  have h : S3200000x8.Reduces [1] S3200000 := by decide
  rw [Host.reduce_eq_fold_single (FloatOps.maximumf (F := Ideal) (φ := .f32)) y init reducesTo_S3200000x8_S3200000_d1 h h_S_ (ix1 e)]
  show (Finset.univ : Finset (Fin 8)).fold max _ _ = _
  refine Finset.fold_congr fun k _ => ?_
  show y (h.lift (ix1 e) k) = _
  rw [lift_at]

/-- The folded maximum of edge `e`'s logits. -/
theorem rowmax_at (e : Fin 3200000) :
    val_main_v11 (F := Ideal) x0 x1 x2 x3 x4 (ix1 e) = top8 (logitsAt x0 x1 x2 x3 x4 e) := by
  have hl : ∀ k : Fin 8, val_main_v10 (F := Ideal) x0 x1 x2 x3 x4 (ix2 e k) = logitsAt x0 x1 x2 x3 x4 e k :=
    logit_at x0 x1 x2 x3 x4 e
  unfold val_main_v11
  generalize val_main_v10 (F := Ideal) x0 x1 x2 x3 x4 = y at hl ⊢
  refine (reduce_max_at y _ e).trans ?_
  rw [val_main_cst_0_apply, Ideal.ofBits_def, ofBits_neg_inf]
  unfold top8
  exact Finset.fold_congr fun k _ => hl k

/-- The maximum taken once more against minus infinity is the same. -/
theorem top_at (e : Fin 3200000) :
    val_main_v13 (F := Ideal) x0 x1 x2 x3 x4 (ix1 e) = top8 (logitsAt x0 x1 x2 x3 x4 e) := by
  rw [val_main_v13_apply, val_main_v12_apply, val_main_cst_1_apply, rowmax_at, Ideal.ofBits_def, ofBits_neg_inf,
    Ideal.maximumf_def]
  exact max_eq_right bot_le

/-! ## The exponentials, their sum, and the gate -/

/-- The exponential of a logit lowered by the row's largest. -/
theorem exp_at (e : Fin 3200000) (q : Fin 8) :
    val_main_v17 (F := Ideal) x0 x1 x2 x3 x4 (ix2 e q)
      = Ideal.exp (logitsAt x0 x1 x2 x3 x4 e q - top8 (logitsAt x0 x1 x2 x3 x4 e)) := by
  rw [val_main_v17_apply, val_main_v16_apply, val_main_v15_apply, val_main_v14_apply, idx_v14_v15, top_at, logit_at,
    Ideal.hostUnary_exp_def, Ideal.subf_def]

/-- The sum of a row's exponentials. -/
theorem expsum_at (e : Fin 3200000) :
    val_main_v18 (F := Ideal) x0 x1 x2 x3 x4 (ix1 e)
      = ∑ p : Fin 8, Ideal.exp (logitsAt x0 x1 x2 x3 x4 e p - top8 (logitsAt x0 x1 x2 x3 x4 e)) := by
  rw [val_main_v18_apply, val_main_cst_2_apply, Ideal.ofBits_def, Ideal.ofBits_zero_f32, zero_add]
  simp only [idx_v18, exp_at]

/-- The gate of edge `e` at expert `q`. -/
theorem gate_at (e : Fin 3200000) (q : Fin 8) :
    val_main_v21 (F := Ideal) x0 x1 x2 x3 x4 (ix2 e q) = gateShifted (logitsAt x0 x1 x2 x3 x4 e) q := by
  rw [val_main_v21_apply, val_main_v20_apply, val_main_v19_apply, idx_v19_v20, expsum_at, exp_at, Ideal.hostDivf_def]
  rfl

/-! ## The scores and the fused value -/

/-- Expert `q`'s score on edge `e`. -/
theorem score_at (e : Fin 3200000) (q : Fin 8) :
    val_main_v22 (F := Ideal) x0 x5 (ix2 e q) = score (rowOf x0 e) (mat x5) q := by
  rw [val_main_v22_apply]
  simp only [lidx_v22, ridx_v22]
  rfl

/-- The gate times the score, at edge `e` and expert `q`. -/
theorem prod_at (e : Fin 3200000) (q : Fin 8) :
    val_main_v23 (F := Ideal) x0 x1 x2 x3 x4 x5 (ix2 e q)
      = gateShifted (logitsAt x0 x1 x2 x3 x4 e) q * score (rowOf x0 e) (mat x5) q := by
  rw [val_main_v23_apply, gate_at, score_at, Ideal.mulf_def]

/-- The fused value of edge `e`. -/
theorem fused_at (e : Fin 3200000) :
    val_main_v24 (F := Ideal) x0 x1 x2 x3 x4 x5 (ix1 e)
      = fuse (gateShifted (logitsAt x0 x1 x2 x3 x4 e)) (score (rowOf x0 e) (mat x5)) := by
  rw [val_main_v24_apply, val_main_cst_3_apply, Ideal.ofBits_def, Ideal.ofBits_zero_f32, zero_add]
  unfold fuse
  refine Finset.sum_congr rfl fun k _ => ?_
  rw [idx_v24, prod_at]

end Stages

/-! ## The two results as whole arrays -/

/-- The reference's gate output is the shifted softmax of the logits, entry by entry. -/
theorem gate_eq (x0 : (⟨S3200000x16, .f32⟩ : BufTy).Contents (Elt Ideal)) (x1 : (⟨S16x32, .f32⟩ : BufTy).Contents (Elt Ideal))
    (x2 : (⟨S32, .f32⟩ : BufTy).Contents (Elt Ideal)) (x3 : (⟨S32x8, .f32⟩ : BufTy).Contents (Elt Ideal))
    (x4 : (⟨S8, .f32⟩ : BufTy).Contents (Elt Ideal)) :
    val_main_v21 (F := Ideal) x0 x1 x2 x3 x4 = fun i => gateShifted (logitsAt x0 x1 x2 x3 x4 (i 0)) (i 1) := by
  funext i
  exact (congrArg (val_main_v21 (F := Ideal) x0 x1 x2 x3 x4) (eq_ix2 i)).trans (gate_at x0 x1 x2 x3 x4 (i 0) (i 1))

/-- The reference's fused output is the gate-weighted sum of the expert scores, edge by edge. -/
theorem fused_eq (x0 : (⟨S3200000x16, .f32⟩ : BufTy).Contents (Elt Ideal)) (x1 : (⟨S16x32, .f32⟩ : BufTy).Contents (Elt Ideal))
    (x2 : (⟨S32, .f32⟩ : BufTy).Contents (Elt Ideal)) (x3 : (⟨S32x8, .f32⟩ : BufTy).Contents (Elt Ideal))
    (x4 : (⟨S8, .f32⟩ : BufTy).Contents (Elt Ideal)) (x5 : (⟨S16x8, .f32⟩ : BufTy).Contents (Elt Ideal)) :
    val_main_v24 (F := Ideal) x0 x1 x2 x3 x4 x5
      = fun i => fuse (gateShifted (logitsAt x0 x1 x2 x3 x4 (i 0))) (score (rowOf x0 (i 0)) (mat x5)) := by
  funext i
  exact (congrArg (val_main_v24 (F := Ideal) x0 x1 x2 x3 x4 x5) (eq_ix1 i)).trans (fused_at x0 x1 x2 x3 x4 x5 (i 0))

end Cert.ReferenceIdeal.RefValue

end
-- ==== Proof.lean ====
/-
  The certificate of a fused gating kernel against its reference: on finite inputs the two programs return the
  same two arrays over the extended reals.

  For every edge `x` (sixteen features) both compute the hidden layer `h = max (x · W1 + b1) 0`, the eight logits
  `h · W2 + b2`, their softmax (the gate) and the gate-weighted sum of the scores `x · Wp`. The kernel works on
  transposed copies, 128000 edges per grid point, and writes the softmax as `exp l · (1 / ∑ exp l)`; the reference
  works edge-major, divides the logits by the temperature one, lowers them by their maximum and divides by the sum.
  Sums, products and maxima of extended reals are the same in either arrangement; the two softmaxes agree once the
  logits are finite, which they are because the inputs are (the precondition): `exp (l − m) = exp l / exp m` and
  the common factor cancels from the quotient.

  The frames of the two kernel programs are the generated ones; the reference's frame is its generated run with
  the results dropped; no rewrite was applied when the kernel was read over the extended reals, so that claim is
  trivial; the value claim joins the kernel's run (Proof/KernelRun.lean) to the reference's (Proof/RefValue.lean)
  through the edge-major formula (Proof/Gater.lean), the softmax identity (Proof/Softmax.lean) and the
  precondition read back (Proof/Finite.lean).
-/
import proofs.«155973_g88742614270593_cont_sun_c4_34_44_alg».proof.Defs
import proofs.«155973_g88742614270593_cont_sun_c4_34_44_alg».proof.Proof.Gen.Kernel
import proofs.«155973_g88742614270593_cont_sun_c4_34_44_alg».proof.Proof.Gen.Kernel.Skeleton
import proofs.«155973_g88742614270593_cont_sun_c4_34_44_alg».proof.Proof.Gen.Kernel.Launch
import proofs.«155973_g88742614270593_cont_sun_c4_34_44_alg».proof.Proof.Gen.Kernel.Points
import proofs.«155973_g88742614270593_cont_sun_c4_34_44_alg».proof.Proof.Gen.Kernel.Frame
import proofs.«155973_g88742614270593_cont_sun_c4_34_44_alg».proof.Proof.Gen.KernelIdeal
import proofs.«155973_g88742614270593_cont_sun_c4_34_44_alg».proof.Proof.Gen.KernelIdeal.Skeleton
import proofs.«155973_g88742614270593_cont_sun_c4_34_44_alg».proof.Proof.Gen.KernelIdeal.Launch
import proofs.«155973_g88742614270593_cont_sun_c4_34_44_alg».proof.Proof.Gen.KernelIdeal.Points
import proofs.«155973_g88742614270593_cont_sun_c4_34_44_alg».proof.Proof.Gen.KernelIdeal.Frame
import proofs.«155973_g88742614270593_cont_sun_c4_34_44_alg».proof.Proof.Gen.ReferenceIdeal
import proofs.«155973_g88742614270593_cont_sun_c4_34_44_alg».proof.Proof.Gen.Pre_finite_inputs
import proofs.«155973_g88742614270593_cont_sun_c4_34_44_alg».proof.Proof.Gen.ReferenceIdeal.Run
import proofs.«155973_g88742614270593_cont_sun_c4_34_44_alg».proof.Proof.Gen.ReferenceIdeal.Read
import proofs.«155973_g88742614270593_cont_sun_c4_34_44_alg».proof.Proof.Gater
import proofs.«155973_g88742614270593_cont_sun_c4_34_44_alg».proof.Proof.Softmax
import proofs.«155973_g88742614270593_cont_sun_c4_34_44_alg».proof.Proof.Finite
import proofs.«155973_g88742614270593_cont_sun_c4_34_44_alg».proof.Proof.KernelRun
import proofs.«155973_g88742614270593_cont_sun_c4_34_44_alg».proof.Proof.RefValue
import Idealize.ShloMosaic.Adequacy
import Idealize.ShloMosaic.Init

noncomputable section

namespace Cert.Proof

open Idealize.ShloMosaic Idealize.ShloMosaic.TcCoe Idealize.SL.Sem Cert.Gater

/-- The word-level kernel runs and keeps its arguments. -/
theorem frame_kernel : Cert.frame_Kernel := fun m ρ _ => Cert.Kernel.Gen.frame m ρ

/-- The kernel read over the extended reals runs and keeps its arguments. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading over the extended reals. -/
theorem preserves : Cert.preserves_Kernel_KernelIdeal := trivial

/-- From memories agreeing on finite arguments both programs end with the fused value and the gate of every
    edge: the kernel's run states them directly; the reference's run states the fused value over the shifted
    softmax, which on the finite logits of finite inputs is the gate. -/
theorem algebraic : Cert.algebraic_KernelIdeal_ReferenceIdeal := by
  intro m ρ m' ρ' hpre hagree
  refine ⟨fun c => fusedArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      fun c => gateArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      Cert.KernelIdeal.Run.run m ρ, ?_⟩
  refine (θ_run Cert.ReferenceIdeal.defs _ _).mono (fun r h c => ?_) (Cert.ReferenceIdeal.Value.run (F := Ideal) m' ρ')
  obtain ⟨h24, h21, hargs⟩ := h c
  obtain ⟨a0, a1, a2, a3, a4, a5⟩ := hagree c
  obtain ⟨f0, f1, f2, f3, f4, f5⟩ := Cert.Finite.real_of_finite _ _ _ _ _ _ (hpre c)
  refine ⟨?_, ?_, hargs⟩
  · rw [h24, Cert.ReferenceIdeal.Read.val_main_v24_eq, Cert.ReferenceIdeal.RefValue.fused_eq, a0, a1, a2, a3, a4, a5]
    funext i
    show fuse (gateShifted (logitsAt _ _ _ _ _ (i 0))) _ = fuse (gate (logitsAt _ _ _ _ _ (i 0))) _
    rw [gateShifted_logitsAt _ _ _ _ _ f0 f1 f2 f3 f4 (i 0)]
  · rw [h21, Cert.ReferenceIdeal.Read.val_main_v21_eq, Cert.ReferenceIdeal.RefValue.gate_eq, a0, a1, a2, a3, a4]
    funext i
    exact congrFun (gateShifted_logitsAt _ _ _ _ _ f0 f1 f2 f3 f4 (i 0)) (i 1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
